-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_1)) (v1 : (c : Dev Cert.KernelIdeal.nD) → Buf (Elt Ideal) ((c.tc : Thread Cert.KernelIdeal.nD Cert.KernelIdeal.τ).loc Cert.KernelIdeal.main_v3_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_1) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x2048 : Shape := ⟨3, ![32, 2048, 2048]⟩
abbrev S8x2048 : Shape := ⟨2, ![8, 2048]⟩
abbrev S72x256 : Shape := ⟨2, ![72, 256]⟩
abbrev S_ : Shape := ⟨0, ![]⟩

class Facts : Prop where
  bcast_S_S32x2048x2048 : S_.BroadcastsInDim S32x2048x2048 (![] : Fin 0 → Fin S32x2048x2048.rank)
  reducesTo_S32x2048x2048_S_d0_1_2 : S32x2048x2048.ReducesTo [0, 1, 2] S_
  h_S_ : 0 < S_.numel
  bcast_S_S8x2048 : S_.BroadcastsInDim S8x2048 (![] : Fin 0 → Fin S8x2048.rank)
  reducesTo_S8x2048_S_d0_1 : S8x2048.ReducesTo [0, 1] S_
  bcast_S_S72x256 : S_.BroadcastsInDim S72x256 (![] : Fin 0 → Fin S72x256.rank)
  reducesTo_S72x256_S_d0_1 : S72x256.ReducesTo [0, 1] S_

variable [Facts]

def fn {F : FTy → Type} [FloatOps F] (main_arg0 : FVec F S32x2048x2048 .f32) (main_arg1 : FVec F S8x2048 .f32) (main_arg2 : FVec F S72x256 .f32) : IVec S_ 1 :=
  let main_v0 : FVec F S32x2048x2048 .f32 := Host.absf main_arg0
  let main_cst : FVec F S_ .f32 := constant S_ .f32 0x7F800000#32
  let main_v1 : FVec F S32x2048x2048 .f32 := broadcastInDim S32x2048x2048 ![] bcast_S_S32x2048x2048 main_cst
  let main_v2 : IVec S32x2048x2048 1 := cmpf .olt main_v0 main_v1
  let main_c : IVec S_ 1 := constantI S_ 1 1#1
  let main_v3 : IVec S_ 1 := (fun x v => Host.reduce IntOp.andi x v reducesTo_S32x2048x2048_S_d0_1_2 h_S_) main_v2 main_c
  let main_v4 : FVec F S8x2048 .f32 := Host.absf main_arg1
  let main_cst_0 : FVec F S_ .f32 := constant S_ .f32 0x7F800000#32
  let main_v5 : FVec F S8x2048 .f32 := broadcastInDim S8x2048 ![] bcast_S_S8x2048 main_cst_0
  let main_v6 : IVec S8x2048 1 := cmpf .olt main_v4 main_v5
  let main_c_1 : IVec S_ 1 := constantI S_ 1 1#1
  let main_v7 : IVec S_ 1 := (fun x v => Host.reduce IntOp.andi x v reducesTo_S8x2048_S_d0_1 h_S_) main_v6 main_c_1
  let main_v8 : IVec S_ 1 := andi main_v3 main_v7
  let main_v9 : FVec F S72x256 .f32 := Host.absf main_arg2
  let main_cst_2 : FVec F S_ .f32 := constant S_ .f32 0x7F800000#32
  let main_v10 : FVec F S72x256 .f32 := broadcastInDim S72x256 ![] bcast_S_S72x256 main_cst_2
  let main_v11 : IVec S72x256 1 := cmpf .olt main_v9 main_v10
  let main_c_3 : IVec S_ 1 := constantI S_ 1 1#1
  let main_v12 : IVec S_ 1 := (fun x v => Host.reduce IntOp.andi x v reducesTo_S72x256_S_d0_1 h_S_) main_v11 main_c_3
  let main_v13 : IVec S_ 1 := andi main_v8 main_v12
  main_v13
-- ==== Kernel.lean ====
abbrev S32x2048x2048 : Shape := ⟨3, ![32, 2048, 2048]⟩
abbrev S8x2048 : Shape := ⟨2, ![8, 2048]⟩
abbrev S72x256 : Shape := ⟨2, ![72, 256]⟩
abbrev S32x1x2048 : Shape := ⟨3, ![32, 1, 2048]⟩
abbrev S1x1024x2048 : Shape := ⟨3, ![1, 1024, 2048]⟩
abbrev S1x1x2048 : Shape := ⟨3, ![1, 1, 2048]⟩
abbrev S1x1x1024 : Shape := ⟨3, ![1, 1, 1024]⟩
abbrev S1x1024 : Shape := ⟨2, ![1, 1024]⟩
abbrev S1x2048 : Shape := ⟨2, ![1, 2048]⟩
abbrev S32x2048 : Shape := ⟨2, ![32, 2048]⟩
abbrev S72x2048 : Shape := ⟨2, ![72, 2048]⟩
abbrev S256x2048 : Shape := ⟨2, ![256, 2048]⟩
abbrev S256 : Shape := ⟨1, ![256]⟩
abbrev S1x256 : Shape := ⟨2, ![1, 256]⟩

abbrev nBuf : Space → Nat
  | .hbm => 9
  | .vmem => 13
  | .smem => 0
  | _ => 0

abbrev bufTy : (tb : Table) → Fin (tcTables nBuf tb) → BufTy
  | .hbm, ⟨0, _⟩ => ⟨S32x2048x2048, .f32⟩
  | .hbm, ⟨1, _⟩ => ⟨S8x2048, .f32⟩
  | .hbm, ⟨2, _⟩ => ⟨S72x256, .f32⟩
  | .hbm, ⟨3, _⟩ => ⟨S32x1x2048, .f32⟩
  | .hbm, ⟨4, _⟩ => ⟨S32x1x2048, .f32⟩
  | .hbm, ⟨5, _⟩ => ⟨S32x2048, .f32⟩
  | .hbm, ⟨6, _⟩ => ⟨S32x2048, .f32⟩
  | .hbm, ⟨7, _⟩ => ⟨S72x2048, .f32⟩
  | .hbm, ⟨8, _⟩ => ⟨S256x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x1024, .f32⟩
  | .local _ .vmem, ⟨5, _⟩ => ⟨S1x1x1024, .f32⟩
  | .local _ .vmem, ⟨6, _⟩ => ⟨S1x1x2048, .f32⟩
  | .local _ .vmem, ⟨7, _⟩ => ⟨S32x2048, .f32⟩
  | .local _ .vmem, ⟨8, _⟩ => ⟨S32x2048, .f32⟩
  | .local _ .vmem, ⟨9, _⟩ => ⟨S8x2048, .f32⟩
  | .local _ .vmem, ⟨10, _⟩ => ⟨S72x256, .f32⟩
  | .local _ .vmem, ⟨11, _⟩ => ⟨S72x2048, .f32⟩
  | .local _ .vmem, ⟨12, _⟩ => ⟨S256x2048, .f32⟩
  | _, _ => ⟨S32x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_13 : BitVec 32 := 0#32
  let v16 : BitVec 1 := Scalar.cmpi .ne v15 c0_i32_13
  v16

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S32x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S32x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S72x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S72x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x1x2048 : S1x1x2048.ShapeCasts S1x1x2048
  inb_S1x1024x2048_S1x1024x2048_0_0_0 : ∀ a, (![0, 0, 0] : Fin 3 → Nat) a + S1x1024x2048.size a ≤ S1x1024x2048.size a
  h_S1x1024x2048 : 0 < S1x1024x2048.numel
  reduces_S1x1024x2048_S1x1024 : S1x1024x2048.Reduces [2] S1x1024
  shapeCasts_S1x1024_S1x1x1024 : S1x1024.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  reduces_S1x1024x2048_S1x2048 : S1x1024x2048.Reduces [1] S1x2048
  shapeCasts_S1x2048_S1x1x2048 : S1x2048.ShapeCasts S1x1x2048
  shapeCasts_S32x1x2048_S32x2048 : S32x1x2048.ShapeCasts S32x2048
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  inb_S8x2048_S8x2048_0_0 : ∀ a, (![0, 0] : Fin 2 → Nat) a + S8x2048.size a ≤ S8x2048.size a
  h_S8x2048 : 0 < S8x2048.numel
  concatenates_S32x2048_S32x2048_S8x2048_S72x2048_d0 : Shape.Concatenates [S32x2048, S32x2048, S8x2048] S72x2048 0
  inb_S72x2048_S72x2048_0_0 : ∀ a, (![0, 0] : Fin 2 → Nat) a + S72x2048.size a ≤ S72x2048.size a
  h_S72x2048 : 0 < S72x2048.numel
  inb_S72x256_S72x256_0_0 : ∀ a, (![0, 0] : Fin 2 → Nat) a + S72x256.size a ≤ S72x256.size a
  h_S72x256 : 0 < S72x256.numel
  reduces_S72x256_S256 : S72x256.Reduces [0] S256
  shapeCasts_S256_S1x256 : S256.ShapeCasts S1x256
  broadcasts_S1x256_S72x256 : S1x256.Broadcasts S72x256
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  dot_S72x256_S72x2048_S256x2048_0_0_1_1_n_n_wf : DotDims.WF S72x256 S72x2048 S256x2048 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S32x2048x2048.size a
  hwx0_0 : ∀ i : grid0.Coords, EltTy.bits .f32 = 32 ∨ (Rect.block (s := S32x2048x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S32x1x2048.size a
  hwx0_1 : ∀ i : grid0.Coords, EltTy.bits .f32 = 32 ∨ (Rect.block (s := S32x1x2048) S1x1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S32x1x2048.size a
  hwx0_2 : ∀ i : grid0.Coords, EltTy.bits .f32 = 32 ∨ (Rect.block (s := S32x1x2048) S1x1x1024.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x2048.size a ≤ S32x2048.size a
  hwx1_0 : ∀ i : grid1.Coords, EltTy.bits .f32 = 32 ∨ (Rect.block (s := S32x2048) S32x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x2048.size a ≤ S32x2048.size a
  hwx1_1 : ∀ i : grid1.Coords, EltTy.bits .f32 = 32 ∨ (Rect.block (s := S32x2048) S32x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x2048.size a ≤ S8x2048.size a
  hwx1_2 : ∀ i : grid1.Coords, EltTy.bits .f32 = 32 ∨ (Rect.block (s := S8x2048) S8x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S72x256.size a ≤ S72x256.size a
  hwx1_3 : ∀ i : grid1.Coords, EltTy.bits .f32 = 32 ∨ (Rect.block (s := S72x256) S72x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S72x2048.size a ≤ S72x2048.size a
  hwx1_4 : ∀ i : grid1.Coords, EltTy.bits .f32 = 32 ∨ (Rect.block (s := S72x2048) S72x2048.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x2048.size a ≤ S256x2048.size a
  hwx1_5 : ∀ i : grid1.Coords, EltTy.bits .f32 = 32 ∨ (Rect.block (s := S256x2048) S256x2048.size (cc1_transform_5 i) (hinb1_5 i)).WholeWords (EltTy.packing .f32)

variable [Facts₀]

def dot_S72x256_S72x2048_S256x2048_0_0_1_1_n_n : DotDims S72x256 S72x2048 S256x2048 where
  lhsContracting := [0]
  rhsContracting := [0]
  lhsNonContracting := [1]
  rhsNonContracting := [1]
  lhsBatch := []
  rhsBatch := []
  wf := dot_S72x256_S72x2048_S256x2048_0_0_1_1_n_n_wf

abbrev win0_0 : Pipeline.Window sig grid0 :=
  Pipeline.Window.ofSpec (Memref.whole main_arg0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1x2048.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun _ => false | ⟨_ + 3, h⟩ => absurd h (Nat.not_lt.2 (Nat.le_add_left _ _))

abbrev win1_0 : Pipeline.Window sig grid1 :=
  Pipeline.Window.ofSpec (Memref.whole main_v1) S32x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S32x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S8x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S72x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3_0) S72x2048.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3_1) S256x2048.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S32x2048x2048 : Shape := ⟨3, ![32, 2048, 2048]⟩
abbrev S8x2048 : Shape := ⟨2, ![8, 2048]⟩
abbrev S72x256 : Shape := ⟨2, ![72, 256]⟩
abbrev S_ : Shape := ⟨0, ![]⟩
abbrev S32x2048 : Shape := ⟨2, ![32, 2048]⟩
abbrev S72x2048 : Shape := ⟨2, ![72, 2048]⟩
abbrev S256 : Shape := ⟨1, ![256]⟩
abbrev S1x256 : Shape := ⟨2, ![1, 256]⟩
abbrev S256x2048 : Shape := ⟨2, ![256, 2048]⟩

abbrev nBuf : Space → Nat
  | .hbm => 31
  | .vmem => 0
  | .smem => 0
  | _ => 0

abbrev bufTy : (tb : Table) → Fin (tcTables nBuf tb) → BufTy
  | .hbm, ⟨0, _⟩ => ⟨S32x2048x2048, .f32⟩
  | .hbm, ⟨1, _⟩ => ⟨S8x2048, .f32⟩
  | .hbm, ⟨2, _⟩ => ⟨S72x256, .f32⟩
  | .hbm, ⟨3, _⟩ => ⟨S_, .f32⟩
  | .hbm, ⟨4, _⟩ => ⟨S32x2048, .f32⟩
  | .hbm, ⟨5, _⟩ => ⟨S_, .f32⟩
  | .hbm, ⟨6, _⟩ => ⟨S32x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S72x2048, .f32⟩
  | .hbm, ⟨11, _⟩ => ⟨S72x2048, .f32⟩
  | .hbm, ⟨12, _⟩ => ⟨S72x2048, .f32⟩
  | .hbm, ⟨13, _⟩ => ⟨S_, .f32⟩
  | .hbm, ⟨14, _⟩ => ⟨S72x2048, .f32⟩
  | .hbm, ⟨15, _⟩ => ⟨S72x2048, .f32⟩
  | .hbm, ⟨16, _⟩ => ⟨S_, .f32⟩
  | .hbm, ⟨17, _⟩ => ⟨S256, .f32⟩
  | .hbm, ⟨18, _⟩ => ⟨S_, .f32⟩
  | .hbm, ⟨19, _⟩ => ⟨S256, .f32⟩
  | .hbm, ⟨20, _⟩ => ⟨S256, .f32⟩
  | .hbm, ⟨21, _⟩ => ⟨S1x256, .f32⟩
  | .hbm, ⟨22, _⟩ => ⟨S72x256, .f32⟩
  | .hbm, ⟨23, _⟩ => ⟨S72x256, .f32⟩
  | .hbm, ⟨24, _⟩ => ⟨S72x256, .f32⟩
  | .hbm, ⟨25, _⟩ => ⟨S_, .f32⟩
  | .hbm, ⟨26, _⟩ => ⟨S256, .f32⟩
  | .hbm, ⟨27, _⟩ => ⟨S1x256, .f32⟩
  | .hbm, ⟨28, _⟩ => ⟨S72x256, .f32⟩
  | .hbm, ⟨29, _⟩ => ⟨S72x256, .f32⟩
  | .hbm, ⟨30, _⟩ => ⟨S256x2048, .f32⟩
  | _, _ => ⟨S32x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  reducesTo_S32x2048x2048_S32x2048_d1 : S32x2048x2048.ReducesTo [1] S32x2048
  h_S_ : 0 < S_.numel
  reducesTo_S32x2048x2048_S32x2048_d2 : S32x2048x2048.ReducesTo [2] S32x2048
  bcast_S_S8x2048 : S_.BroadcastsInDim S8x2048 (![] : Fin 0 → Fin S8x2048.rank)
  concatenates_S32x2048_S32x2048_S8x2048_S72x2048_d0 : Shape.Concatenates [S32x2048, S32x2048, S8x2048] S72x2048 0
  bcast_S_S72x2048 : S_.BroadcastsInDim S72x2048 (![] : Fin 0 → Fin S72x2048.rank)
  reducesTo_S72x256_S256_d0 : S72x256.ReducesTo [0] S256
  bcast_S_S256 : S_.BroadcastsInDim S256 (![] : Fin 0 → Fin S256.rank)
  bcast_S256_S1x256_1 : S256.BroadcastsInDim S1x256 (![1] : Fin 1 → Fin S1x256.rank)
  bcast_S1x256_S72x256_0_1 : S1x256.BroadcastsInDim S72x256 (![0, 1] : Fin 2 → Fin S72x256.rank)
  dot_S72x256_S72x2048_S256x2048_0_0_1_1_n_n_wf : DotDims.WF S72x256 S72x2048 S256x2048 [0] [0] [1] [1] [] []

variable [Facts₀]

def dot_S72x256_S72x2048_S256x2048_0_0_1_1_n_n : DotDims S72x256 S72x2048 S256x2048 where
  lhsContracting := [0]
  rhsContracting := [0]
  lhsNonContracting := [1]
  rhsNonContracting := [1]
  lhsBatch := []
  rhsBatch := []
  wf := dot_S72x256_S72x2048_S256x2048_0_0_1_1_n_n_wf

class Facts : Prop extends Facts₀ where

variable [Facts]
-- ==== Proof.Kernel.R0Defs.lean ====
/-
  The first kernel (the two row/column sums of the database) on its grid of 32 × 2 points: the two conditions of its
  body decided over the grid, where its accumulated output is idle, the memrefs a point runs on, and each window's
  block at a point, read off the contents `V` the region is entered with.
-/
import proofs.«161578_j60215441489999_2_alg».proof.Proof.Gen.Kernel.Launch
import proofs.«161578_j60215441489999_2_alg».proof.Proof.Gen.Kernel.Skeleton
import proofs.«161578_j60215441489999_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions over the grid -/

/-- "this is the first chunk of rows" (the accumulator is reset): the body's first conditional. -/
abbrev cond0_0 (i : grid0.Coords) : Prop := (Scalar.cmpi .ne (Scalar.extui (Scalar.cmpi .eq (BitVec.ofNat 32 (i 1).val) 0#32)) 0#32) = 1#1
/-- It holds at the even points (the grid's inner axis has two positions). -/
theorem hcond0_0 : ∀ t : Fin cfg0.N, cond0_0 (grid0.coords t) ↔ t.val % 2 = 0 :=
  (by decide +kernel : ∀ t : Fin grid0.N, cond0_0 (grid0.coords t) ↔ t.val % 2 = 0)

/-- "this is the last chunk of rows" (the accumulator is copied out): the body's second conditional. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_2 : ∀ t : Fin cfg0.N, cfg0.idle 2 (grid0.coords t) = false := by decide +kernel
/-- At an even point the accumulated output is not stored: its window is idle there and not written back. -/
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
/-- At an odd point it is stored (and written back). -/
theorem liveAt0_1_B : ∀ t : Fin cfg0.N, ¬cond0_0 (grid0.coords t) → cond0_1 (grid0.coords t) → cfg0.idle 1 (grid0.coords t) = false := by decide +kernel

/-! ## The memrefs a point runs on -/

abbrev VO0_1 : View sig .tc .vmem S1x1x2048 .f32 := (Memref.whole cc0_stg1_0 : Memref sig .tc .vmem S1x1x2048 .f32).view
abbrev VO0_2 : View sig .tc .vmem S1x1x1024 .f32 := (Memref.whole cc0_stg2_0 : Memref sig .tc .vmem S1x1x1024 .f32).view
abbrev ms0_0 (t : Fin cfg0.N) : Memref sig .tc .vmem S1x1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024 .f32 := win0_2.stage (cfg0.slots t 2)
abbrev hs0_2 (t : Fin cfg0.N) : (ms0_2 t).IsWhole := hstage0_2 ((cfg0.slots t 2).cast nbuf0_2)
/-- The accumulator: a whole scoped buffer of the kernel's own, carried from point to point. -/
abbrev scM0_0 : Memref sig .tc .vmem S1x1x2048 .f32 := Memref.whole cc0_scratch0
abbrev VS0_0 : View sig .tc .vmem S1x1x2048 .f32 := scM0_0.view

/-- The class invariant with the accumulator split off as a memref owned at some contents. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f)) ∗ (∃ r, prngReg c r)) := by
  unfold Pipeline.ΦA; rw [scopedRest0_eq]; simp only [scM0_0, owns_whole]; try rfl

/-! ## The windows' blocks -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
end

end Cert.Kernel.Hand

end
-- ==== Proof.Kernel.R0RunA.lean ====
/-
  The first kernel's body at an EVEN point (the first chunk of a relation's rows): the accumulator is reset to zero, the
  chunk's row sums are stored whole into the second output's buffer, the chunk's column sums are added into the
  accumulator, and the first output's buffer is left as found. The pieces each buffer ends with are the witness the
  symbolic run finds.
-/
import proofs.«161578_j60215441489999_2_alg».proof.Proof.Kernel.R0Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1x1024x2048 .f32) (harg2 : arg2.IsWhole) (arg3 : Memref sig .tc .vmem S1x1x2048 .f32) (harg3 : arg3.IsWhole) (arg4 : Memref sig .tc .vmem S1x1x1024 .f32) (harg4 : arg4.IsWhole) (arg5 : Memref sig .tc .vmem S1x1x2048 .f32) (harg5 : arg5.IsWhole) (hc0 : cond0_0 i) (hc1 : ¬cond0_1 i)
    (x0 : Vec F S1x1024x2048 .f32) :
    Σ' (L2 : List (View.Piece (Elt F) S1x1x1024 .f32)), { LS0 : List (View.Piece (Elt F) S1x1x2048 .f32) //
      ∀ (xi1 : Vec F S1x1x2048 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__reduce_kernel i arg2 harg2 arg3 harg3 arg4 harg4 arg5 harg5) K } := by
  refine ⟨?_, ?_, fun xi1 E K => ?run⟩
  case run =>
    simp only [cc0__reduce_kernel_eq_skeleton]; unfold cc0__reduce_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.Kernel.R0RunB.lean ====
/-
  The first kernel's body at an ODD point (the last chunk of a relation's rows): the chunk's row sums are stored whole
  into the second output's buffer, the chunk's column sums are added into the accumulator the point before left, and
  the accumulator is copied whole into the first output's buffer. The pieces each buffer ends with are the witness the
  symbolic run finds.
-/
import proofs.«161578_j60215441489999_2_alg».proof.Proof.Kernel.R0Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1x1024x2048 .f32) (harg2 : arg2.IsWhole) (arg3 : Memref sig .tc .vmem S1x1x2048 .f32) (harg3 : arg3.IsWhole) (arg4 : Memref sig .tc .vmem S1x1x1024 .f32) (harg4 : arg4.IsWhole) (arg5 : Memref sig .tc .vmem S1x1x2048 .f32) (harg5 : arg5.IsWhole) (hc0 : ¬cond0_0 i) (hc1 : cond0_1 i)
    (x0 : Vec F S1x1024x2048 .f32) (xs0 : Vec F S1x1x2048 .f32) :
    Σ' (L1 : List (View.Piece (Elt F) S1x1x2048 .f32)) (L2 : List (View.Piece (Elt F) S1x1x1024 .f32)), { LS0 : List (View.Piece (Elt F) S1x1x2048 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__reduce_kernel i arg2 harg2 arg3 harg3 arg4 harg4 arg5 harg5) K } := by
  refine ⟨?_, ?_, ?_, fun E K => ?run⟩
  case run =>
    simp only [cc0__reduce_kernel_eq_skeleton]; unfold cc0__reduce_kernel_skel
    unfold owns
    iintro ⟨⟨%f0, %hf0, H0⟩, ⟨%d1, %f1, -, H1⟩, ⟨%d2, %f2, -, H2⟩, ⟨%fs0, %hfs0, HS0⟩, Hk⟩
    obtain rfl := harg2.eq_unread hf0; obtain rfl := harg5.eq_unread hfs0
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    iexists _; iexact HS0

end Cert.Kernel.Hand

end
-- ==== Proof.Kernel.R0Frame.lean ====
/-
  The first kernel over its whole grid. Per case of the body, what its stores leave in each buffer (the pieces read
  back: they tile the buffer, so they cover it); point by point, what the two outputs' staging buffers and the
  accumulator hold after the body (`outsAt0`: an even point starts from a zeroed accumulator, an odd point from what
  the even point before it left); the region's invariant with the accumulator at those contents; the proof data; and
  the body obligation at every point.
-/
import proofs.«161578_j60215441489999_2_alg».proof.Proof.Kernel.R0RunA
import proofs.«161578_j60215441489999_2_alg».proof.Proof.Kernel.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

theorem cover0_A_2 (c : Dev nD) (i : grid0.Coords) (arg2 : Memref sig .tc .vmem S1x1024x2048 .f32) (harg2 : arg2.IsWhole) (arg3 : Memref sig .tc .vmem S1x1x2048 .f32) (harg3 : arg3.IsWhole) (arg4 : Memref sig .tc .vmem S1x1x1024 .f32) (harg4 : arg4.IsWhole) (arg5 : Memref sig .tc .vmem S1x1x2048 .f32) (harg5 : arg5.IsWhole) (hc0 : cond0_0 i) (hc1 : ¬cond0_1 i) (x0 : Vec F S1x1024x2048 .f32) (y : S1x1x1024.Idx) :
    ∃ pc ∈ (kernelRun0_A c i arg2 harg2 arg3 harg3 arg4 harg4 arg5 harg5 hc0 hc1 x0).1, y ∈ pc.1.set :=
  View.cover_of_tiledL (kernelRun0_A c i arg2 harg2 arg3 harg3 arg4 harg4 arg5 harg5 hc0 hc1 x0).1 S1x1x1024.size (by sl_kernel_rfl) y
/-- The second output's buffer after an even point: its pieces read back. -/
def out0_A_2 (c : Dev nD) (i : grid0.Coords) (arg2 : Memref sig .tc .vmem S1x1024x2048 .f32) (harg2 : arg2.IsWhole) (arg3 : Memref sig .tc .vmem S1x1x2048 .f32) (harg3 : arg3.IsWhole) (arg4 : Memref sig .tc .vmem S1x1x1024 .f32) (harg4 : arg4.IsWhole) (arg5 : Memref sig .tc .vmem S1x1x2048 .f32) (harg5 : arg5.IsWhole) (hc0 : cond0_0 i) (hc1 : ¬cond0_1 i) (x0 : Vec F S1x1024x2048 .f32) : Vec F S1x1x1024 .f32 :=
  VO0_2.read (Elt F) (VO0_2.writes (Elt F) VO0_2.junk (kernelRun0_A c i arg2 harg2 arg3 harg3 arg4 harg4 arg5 harg5 hc0 hc1 x0).1)
theorem scover0_A_0 (c : Dev nD) (i : grid0.Coords) (arg2 : Memref sig .tc .vmem S1x1024x2048 .f32) (harg2 : arg2.IsWhole) (arg3 : Memref sig .tc .vmem S1x1x2048 .f32) (harg3 : arg3.IsWhole) (arg4 : Memref sig .tc .vmem S1x1x1024 .f32) (harg4 : arg4.IsWhole) (arg5 : Memref sig .tc .vmem S1x1x2048 .f32) (harg5 : arg5.IsWhole) (hc0 : cond0_0 i) (hc1 : ¬cond0_1 i) (x0 : Vec F S1x1024x2048 .f32) (y : S1x1x2048.Idx) :
    ∃ pc ∈ (kernelRun0_A c i arg2 harg2 arg3 harg3 arg4 harg4 arg5 harg5 hc0 hc1 x0).2.1, y ∈ pc.1.set :=
  View.cover_of_tiledL (kernelRun0_A c i arg2 harg2 arg3 harg3 arg4 harg4 arg5 harg5 hc0 hc1 x0).2.1 S1x1x2048.size (by sl_kernel_rfl) y
/-- The accumulator after an even point. -/
def sout0_A_0 (c : Dev nD) (i : grid0.Coords) (arg2 : Memref sig .tc .vmem S1x1024x2048 .f32) (harg2 : arg2.IsWhole) (arg3 : Memref sig .tc .vmem S1x1x2048 .f32) (harg3 : arg3.IsWhole) (arg4 : Memref sig .tc .vmem S1x1x1024 .f32) (harg4 : arg4.IsWhole) (arg5 : Memref sig .tc .vmem S1x1x2048 .f32) (harg5 : arg5.IsWhole) (hc0 : cond0_0 i) (hc1 : ¬cond0_1 i) (x0 : Vec F S1x1024x2048 .f32) : Vec F S1x1x2048 .f32 :=
  VS0_0.read (Elt F) (VS0_0.writes (Elt F) VS0_0.junk (kernelRun0_A c i arg2 harg2 arg3 harg3 arg4 harg4 arg5 harg5 hc0 hc1 x0).2.1)

theorem cover0_B_1 (c : Dev nD) (i : grid0.Coords) (arg2 : Memref sig .tc .vmem S1x1024x2048 .f32) (harg2 : arg2.IsWhole) (arg3 : Memref sig .tc .vmem S1x1x2048 .f32) (harg3 : arg3.IsWhole) (arg4 : Memref sig .tc .vmem S1x1x1024 .f32) (harg4 : arg4.IsWhole) (arg5 : Memref sig .tc .vmem S1x1x2048 .f32) (harg5 : arg5.IsWhole) (hc0 : ¬cond0_0 i) (hc1 : cond0_1 i) (x0 : Vec F S1x1024x2048 .f32) (xs0 : Vec F S1x1x2048 .f32) (y : S1x1x2048.Idx) :
    ∃ pc ∈ (kernelRun0_B c i arg2 harg2 arg3 harg3 arg4 harg4 arg5 harg5 hc0 hc1 x0 xs0).1, y ∈ pc.1.set :=
  View.cover_of_tiledL (kernelRun0_B c i arg2 harg2 arg3 harg3 arg4 harg4 arg5 harg5 hc0 hc1 x0 xs0).1 S1x1x2048.size (by sl_kernel_rfl) y
/-- The first output's buffer after an odd point. -/
def out0_B_1 (c : Dev nD) (i : grid0.Coords) (arg2 : Memref sig .tc .vmem S1x1024x2048 .f32) (harg2 : arg2.IsWhole) (arg3 : Memref sig .tc .vmem S1x1x2048 .f32) (harg3 : arg3.IsWhole) (arg4 : Memref sig .tc .vmem S1x1x1024 .f32) (harg4 : arg4.IsWhole) (arg5 : Memref sig .tc .vmem S1x1x2048 .f32) (harg5 : arg5.IsWhole) (hc0 : ¬cond0_0 i) (hc1 : cond0_1 i) (x0 : Vec F S1x1024x2048 .f32) (xs0 : Vec F S1x1x2048 .f32) : Vec F S1x1x2048 .f32 :=
  VO0_1.read (Elt F) (VO0_1.writes (Elt F) VO0_1.junk (kernelRun0_B c i arg2 harg2 arg3 harg3 arg4 harg4 arg5 harg5 hc0 hc1 x0 xs0).1)
theorem cover0_B_2 (c : Dev nD) (i : grid0.Coords) (arg2 : Memref sig .tc .vmem S1x1024x2048 .f32) (harg2 : arg2.IsWhole) (arg3 : Memref sig .tc .vmem S1x1x2048 .f32) (harg3 : arg3.IsWhole) (arg4 : Memref sig .tc .vmem S1x1x1024 .f32) (harg4 : arg4.IsWhole) (arg5 : Memref sig .tc .vmem S1x1x2048 .f32) (harg5 : arg5.IsWhole) (hc0 : ¬cond0_0 i) (hc1 : cond0_1 i) (x0 : Vec F S1x1024x2048 .f32) (xs0 : Vec F S1x1x2048 .f32) (y : S1x1x1024.Idx) :
    ∃ pc ∈ (kernelRun0_B c i arg2 harg2 arg3 harg3 arg4 harg4 arg5 harg5 hc0 hc1 x0 xs0).2.1, y ∈ pc.1.set :=
  View.cover_of_tiledL (kernelRun0_B c i arg2 harg2 arg3 harg3 arg4 harg4 arg5 harg5 hc0 hc1 x0 xs0).2.1 S1x1x1024.size (by sl_kernel_rfl) y
/-- The second output's buffer after an odd point. -/
def out0_B_2 (c : Dev nD) (i : grid0.Coords) (arg2 : Memref sig .tc .vmem S1x1024x2048 .f32) (harg2 : arg2.IsWhole) (arg3 : Memref sig .tc .vmem S1x1x2048 .f32) (harg3 : arg3.IsWhole) (arg4 : Memref sig .tc .vmem S1x1x1024 .f32) (harg4 : arg4.IsWhole) (arg5 : Memref sig .tc .vmem S1x1x2048 .f32) (harg5 : arg5.IsWhole) (hc0 : ¬cond0_0 i) (hc1 : cond0_1 i) (x0 : Vec F S1x1024x2048 .f32) (xs0 : Vec F S1x1x2048 .f32) : Vec F S1x1x1024 .f32 :=
  VO0_2.read (Elt F) (VO0_2.writes (Elt F) VO0_2.junk (kernelRun0_B c i arg2 harg2 arg3 harg3 arg4 harg4 arg5 harg5 hc0 hc1 x0 xs0).2.1)
theorem scover0_B_0 (c : Dev nD) (i : grid0.Coords) (arg2 : Memref sig .tc .vmem S1x1024x2048 .f32) (harg2 : arg2.IsWhole) (arg3 : Memref sig .tc .vmem S1x1x2048 .f32) (harg3 : arg3.IsWhole) (arg4 : Memref sig .tc .vmem S1x1x1024 .f32) (harg4 : arg4.IsWhole) (arg5 : Memref sig .tc .vmem S1x1x2048 .f32) (harg5 : arg5.IsWhole) (hc0 : ¬cond0_0 i) (hc1 : cond0_1 i) (x0 : Vec F S1x1024x2048 .f32) (xs0 : Vec F S1x1x2048 .f32) (y : S1x1x2048.Idx) :
    ∃ pc ∈ (kernelRun0_B c i arg2 harg2 arg3 harg3 arg4 harg4 arg5 harg5 hc0 hc1 x0 xs0).2.2.1, y ∈ pc.1.set :=
  View.cover_of_tiledL (kernelRun0_B c i arg2 harg2 arg3 harg3 arg4 harg4 arg5 harg5 hc0 hc1 x0 xs0).2.2.1 S1x1x2048.size (by sl_kernel_rfl) y
/-- The accumulator after an odd point. -/
def sout0_B_0 (c : Dev nD) (i : grid0.Coords) (arg2 : Memref sig .tc .vmem S1x1024x2048 .f32) (harg2 : arg2.IsWhole) (arg3 : Memref sig .tc .vmem S1x1x2048 .f32) (harg3 : arg3.IsWhole) (arg4 : Memref sig .tc .vmem S1x1x1024 .f32) (harg4 : arg4.IsWhole) (arg5 : Memref sig .tc .vmem S1x1x2048 .f32) (harg5 : arg5.IsWhole) (hc0 : ¬cond0_0 i) (hc1 : cond0_1 i) (x0 : Vec F S1x1024x2048 .f32) (xs0 : Vec F S1x1x2048 .f32) : Vec F S1x1x2048 .f32 :=
  VS0_0.read (Elt F) (VS0_0.writes (Elt F) VS0_0.junk (kernelRun0_B c i arg2 harg2 arg3 harg3 arg4 harg4 arg5 harg5 hc0 hc1 x0 xs0).2.2.1)

/-! ## Point by point -/

theorem hcA (t : Fin cfg0.N) (h0 : t.val % 2 = 0) : ¬cond0_1 (grid0.coords t) := fun h => by
  have := (hcond0_1 t).mp h; omega
theorem hcB (t : Fin cfg0.N) (h0 : ¬t.val % 2 = 0) : cond0_1 (grid0.coords t) := (hcond0_1 t).mpr (by omega)

section
variable (V : (c : Dev nD) → (b : Ref sig .tc) → Buf (Elt F) ((c : Thread nD τ).loc b))

/-- What the first output's buffer, the second output's buffer and the accumulator hold after the body at position
    `n`. (At an even point the first output's buffer is left as found and never consulted: the first component there is
    a placeholder.) -/
def outsAt0 (c : Dev nD) : (n : ℕ) → n < cfg0.N → Vec F S1x1x2048 .f32 × Vec F S1x1x1024 .f32 × Vec F S1x1x2048 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (hcA ⟨0, hn⟩ (Nat.zero_mod _)) (iblk0 V c 0 ⟨0, hn⟩),
      out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (hcA ⟨0, hn⟩ (Nat.zero_mod _)) (iblk0 V c 0 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (hcA ⟨0, hn⟩ (Nat.zero_mod _)) (iblk0 V c 0 ⟨0, hn⟩))
  | n + 1, hn =>
    if h0 : (n + 1) % 2 = 0 then
      (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (hcA ⟨n + 1, hn⟩ h0) (iblk0 V c 0 ⟨n + 1, hn⟩),
        out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (hcA ⟨n + 1, hn⟩ h0) (iblk0 V c 0 ⟨n + 1, hn⟩),
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (hcA ⟨n + 1, hn⟩ h0) (iblk0 V c 0 ⟨n + 1, hn⟩))
    else
      (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (hcB ⟨n + 1, hn⟩ h0) (iblk0 V c 0 ⟨n + 1, hn⟩) (outsAt0 c n (Nat.lt_of_succ_lt hn)).2.2,
        out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (hcB ⟨n + 1, hn⟩ h0) (iblk0 V c 0 ⟨n + 1, hn⟩) (outsAt0 c n (Nat.lt_of_succ_lt hn)).2.2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (hcB ⟨n + 1, hn⟩ h0) (iblk0 V c 0 ⟨n + 1, hn⟩) (outsAt0 c n (Nat.lt_of_succ_lt hn)).2.2)

theorem outsAt0_A (c : Dev nD) (t : Fin cfg0.N) (h0 : t.val % 2 = 0) :
    outsAt0 V c t.val t.isLt = (sout0_A_0 c (grid0.coords t) (ms0_0 t) (hs0_0 t) (ms0_1 t) (hs0_1 t) (ms0_2 t) (hs0_2 t) scM0_0 (Memref.isWhole_whole _) ((hcond0_0 t).mpr h0) (hcA t h0) (iblk0 V c 0 t),
      out0_A_2 c (grid0.coords t) (ms0_0 t) (hs0_0 t) (ms0_1 t) (hs0_1 t) (ms0_2 t) (hs0_2 t) scM0_0 (Memref.isWhole_whole _) ((hcond0_0 t).mpr h0) (hcA t h0) (iblk0 V c 0 t),
      sout0_A_0 c (grid0.coords t) (ms0_0 t) (hs0_0 t) (ms0_1 t) (hs0_1 t) (ms0_2 t) (hs0_2 t) scM0_0 (Memref.isWhole_whole _) ((hcond0_0 t).mpr h0) (hcA t h0) (iblk0 V c 0 t)) := by
  obtain ⟨n, hn⟩ := t
  cases n with
  | zero => exact rfl
  | succ n => exact (dif_pos h0).trans rfl

theorem outsAt0_B (c : Dev nD) (t : Fin cfg0.N) (h0 : ¬t.val % 2 = 0) :
    outsAt0 V c t.val t.isLt = (out0_B_1 c (grid0.coords t) (ms0_0 t) (hs0_0 t) (ms0_1 t) (hs0_1 t) (ms0_2 t) (hs0_2 t) scM0_0 (Memref.isWhole_whole _) (fun h => h0 ((hcond0_0 t).mp h)) (hcB t h0) (iblk0 V c 0 t) (outsAt0 V c (t.val - 1) (Nat.lt_of_le_of_lt (Nat.sub_le _ _) t.isLt)).2.2,
      out0_B_2 c (grid0.coords t) (ms0_0 t) (hs0_0 t) (ms0_1 t) (hs0_1 t) (ms0_2 t) (hs0_2 t) scM0_0 (Memref.isWhole_whole _) (fun h => h0 ((hcond0_0 t).mp h)) (hcB t h0) (iblk0 V c 0 t) (outsAt0 V c (t.val - 1) (Nat.lt_of_le_of_lt (Nat.sub_le _ _) t.isLt)).2.2,
      sout0_B_0 c (grid0.coords t) (ms0_0 t) (hs0_0 t) (ms0_1 t) (hs0_1 t) (ms0_2 t) (hs0_2 t) scM0_0 (Memref.isWhole_whole _) (fun h => h0 ((hcond0_0 t).mp h)) (hcB t h0) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The invariant -/

/-- The scoped buffers of the second kernel, which this region leaves alone, each whole at some contents. -/
abbrev restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f))

theorem PhiA0_eq' (c : Dev nD) :
    (Pipeline.ΦA spec0 c : sProp 𝕄) = iprop(iprop((∃ d, owns (c : Thread nD τ) scM0_0 fullShare d) ∗ restS (F := F) c) ∗ (∃ r, prngReg c r)) :=
  PhiA0_eq c

/-- The region's invariant before position `n`: before the first point the class's (every scoped buffer at anything);
    afterwards the accumulator at what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ restS (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2) ∗ restS (F := F) c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ restS (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 2 t = owns (c : Thread nD τ) (ms0_2 t) fullShare ((dat0 V c).after 2 t) from by
    unfold Dat.leavesExact; rw [liveAt0_2 t], after0_2]
  by_cases h0 : t.val % 2 = 0
  · rw [Dat.leavesExact_idle (dat0 V c) 1 t (idleAt0_1_A t ((hcond0_0 t).mpr h0) (hcA t h0)) (noFlush0_1_A t ((hcond0_0 t).mpr h0) (hcA t h0))]
    rw [outsAt0_A V c t h0]
    unfold sout0_A_0 out0_A_2; (try dsimp only)
    by_cases hz : t.val = 0
    · rw [PhiS_castSucc V c t, PhiS_zero V c _ _ hz, PhiA0_eq']
      iintro ⟨⟨⟨HS0, Hrest⟩, Hg⟩, Ho, ⟨%d0, H0⟩, ⟨%d1, H1⟩, ⟨%d2, H2⟩⟩
      iapply ((kernelRun0_A c (grid0.coords t) _ _ _ _ _ _ _ _ ((hcond0_0 t).mpr h0) (hcA t h0) (iblk0 V c 0 t)).2.2 _ Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _)
          iexact Hrest
        iexact Hg
      isplitl [Ho]; · iexact Ho
      isplitl [H0]; · iexact H0
      isplitl [H1]; · iexists _; iexact H1
      unfold owns; iexists _; isplitr
      swap; · iexact H2
      ipureintro; exact View.read_writes_of_cover _ _ _ _ _ (cover0_A_2 c _ _ _ _ _ _ _ _ _ _ _ _)
    · rw [PhiS_castSucc V c t, PhiS_pos V c _ _ hz]
      iintro ⟨⟨⟨HS0, Hrest⟩, Hg⟩, Ho, ⟨%d0, H0⟩, ⟨%d1, H1⟩, ⟨%d2, H2⟩⟩
      iapply ((kernelRun0_A c (grid0.coords t) _ _ _ _ _ _ _ _ ((hcond0_0 t).mpr h0) (hcA t h0) (iblk0 V c 0 t)).2.2 _ Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _)
          iexact Hrest
        iexact Hg
      isplitl [Ho]; · iexact Ho
      isplitl [H0]; · iexact H0
      isplitl [H1]; · iexists _; iexact H1
      unfold owns; iexists _; isplitr
      swap; · iexact H2
      ipureintro; exact View.read_writes_of_cover _ _ _ _ _ (cover0_A_2 c _ _ _ _ _ _ _ _ _ _ _ _)
  · rw [show (dat0 V c).leavesExact 1 t = owns (c : Thread nD τ) (ms0_1 t) fullShare ((dat0 V c).after 1 t) from by
      unfold Dat.leavesExact; rw [liveAt0_1_B t (fun h => h0 ((hcond0_0 t).mp h)) (hcB t h0)], after0_1]
    rw [outsAt0_B V c t h0]
    unfold out0_B_1 out0_B_2 sout0_B_0; (try dsimp only)
    have hz : t.val ≠ 0 := fun hz => h0 (by rw [hz])
    rw [PhiS_castSucc V c t, PhiS_pos V c _ _ hz]
    iintro ⟨⟨⟨HS0, Hrest⟩, Hg⟩, Ho, ⟨%d0, H0⟩, ⟨%d1, H1⟩, ⟨%d2, H2⟩⟩
    iapply ((kernelRun0_B c (grid0.coords t) _ _ _ _ _ _ _ _ (fun h => h0 ((hcond0_0 t).mp h)) (hcB t h0) (iblk0 V c 0 t) _).2.2.2 Set.univ _)
    isplitl [H0]; · iexact H0
    isplitl [H1]; · iexists _; iexact H1
    isplitl [H2]; · iexists _; iexact H2
    isplitl [HS0]; · iexact HS0
    iintro ⟨H0, ⟨%e1, H1⟩, ⟨%e2, H2⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_B_0 c _ _ _ _ _ _ _ _ _ _ _ _ _)
        iexact Hrest
      iexact Hg
    isplitl [Ho]; · iexact Ho
    isplitl [H0]; · iexact H0
    isplitl [H1]
    · unfold owns; iexists _; isplitr
      swap; · iexact H1
      ipureintro; exact View.read_writes_of_cover _ _ _ _ _ (cover0_B_1 c _ _ _ _ _ _ _ _ _ _ _ _ _)
    unfold owns; iexists _; isplitr
    swap; · iexact H2
    ipureintro; exact View.read_writes_of_cover _ _ _ _ _ (cover0_B_2 c _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- and after the last point the invariant gives it back, the accumulator's contents forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl, PhiS_pos V c _ _ ht, PhiA0_eq']
  iintro ⟨⟨HS0, Hrest⟩, Hg⟩
  isplitl [HS0 Hrest]
  · isplitl [HS0]
    · iexists _; iexact HS0
    iexact Hrest
  iexact Hg
end

end Cert.Kernel.Hand

end
-- ==== Proof.Kernel.Region1.lean ====
/- The class-A half of REGION 1 of @main (the second pallas_call, pipeline `cfg1`, kernel function
   `cc1__combine_kernel`) at a PARAMETER `V`, the TensorCore's buffer contents when the region is entered: each window's
   block at the grid's one point, what the body leaves in each output window's staging buffer as a function of the input
   blocks, the body's triple, the pipeline's proof data and the body obligation; then what the region leaves in its
   two output arrays, as the payloads of the whole entry arrays. Generic in the float interpretation `F`. -/
import proofs.«161578_j60215441489999_2_alg».proof.Proof.Gen.Kernel.Launch
import proofs.«161578_j60215441489999_2_alg».proof.Proof.Gen.Kernel.Skeleton
import proofs.«161578_j60215441489999_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of long axes: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev r1_0 : Rect S32x2048 := Rect.unit (s := S32x2048) ![0, 0] S32x2048.size inb_S32x2048_S32x2048_0_0
abbrev r1_1 : Rect S8x2048 := Rect.unit (s := S8x2048) ![0, 0] S8x2048.size inb_S8x2048_S8x2048_0_0
abbrev r1_2 : Rect S72x256 := Rect.unit (s := S72x256) ![0, 0] S72x256.size inb_S72x256_S72x256_0_0
abbrev r1_3 : Rect S72x2048 := Rect.unit (s := S72x2048) ![0, 0] S72x2048.size inb_S72x2048_S72x2048_0_0
abbrev r1_4 : Rect S256x2048 := Rect.unit (s := S256x2048) ![0, 0] S256x2048.size inb_S256x2048_S256x2048_0_0

/-! ## What the body leaves in each output window's buffer -/

/-- Window 4's staging buffer after the body, from the input windows' blocks: its one store as a piece. -/
def out1_4 (x0 x1 : Vec F S32x2048 .f32) (x2 : Vec F S8x2048 .f32) : Vec F S72x2048 .f32 :=
  View.canon [⟨r1_3, k1_pay1 (View.ld x0 r1_0) (View.ld x1 r1_0) (View.ld x2 r1_1)⟩]

/-- Window 5's staging buffer after the body, from the input windows' blocks: its one store as a piece. -/
def out1_5 (x0 x1 : Vec F S32x2048 .f32) (x2 : Vec F S8x2048 .f32) (x3 : Vec F S72x256 .f32) : Vec F S256x2048 .f32 :=
  View.canon [⟨r1_4, k1_pay2 (View.ld x0 r1_0) (View.ld x1 r1_0) (View.ld x2 r1_1) (View.ld x3 r1_2)⟩]

/-- The one store of window 4 tiles its buffer (checked by evaluation), so it covers it. -/
theorem cover1_4 (p0 : Vec F S72x2048 .f32) (y : S72x2048.Idx) :
    ∃ pc ∈ ([⟨r1_3, p0⟩] : List (View.Piece (Elt F) S72x2048 .f32)), y ∈ pc.1.set :=
  View.cover_of_tiled [⟨r1_3, p0⟩] S72x2048.size (by rfl) y

/-- The one store of window 5 tiles its buffer (checked by evaluation), so it covers it. -/
theorem cover1_5 (p0 : Vec F S256x2048 .f32) (y : S256x2048.Idx) :
    ∃ pc ∈ ([⟨r1_4, p0⟩] : List (View.Piece (Elt F) S256x2048 .f32)), y ∈ pc.1.set :=
  View.cover_of_tiled [⟨r1_4, p0⟩] S256x2048.size (by rfl) y

/-! ## The body's triple -/

set_option maxHeartbeats 4000000 in
/-- The kernel body on whole staging memrefs, the inputs' at read contents `xW` and the outputs' at anything, runs to
    the continuation holding the inputs' as they were and each output's at `out1_W` of the inputs'. The body also
    loads each output buffer before it stores it whole; what those loads read is used by no store. -/
theorem sound_kernel1 (c : Dev nD) (E : Set ℕ) (i : grid1.Coords)
    (arg1 : Memref sig .tc .vmem S32x2048 .f32) (harg1 : arg1.IsWhole) (arg2 : Memref sig .tc .vmem S32x2048 .f32) (harg2 : arg2.IsWhole)
    (arg3 : Memref sig .tc .vmem S8x2048 .f32) (harg3 : arg3.IsWhole) (arg4 : Memref sig .tc .vmem S72x256 .f32) (harg4 : arg4.IsWhole)
    (arg5 : Memref sig .tc .vmem S72x2048 .f32) (harg5 : arg5.IsWhole) (arg6 : Memref sig .tc .vmem S256x2048 .f32) (harg6 : arg6.IsWhole)
    (x0 x1 : Vec F S32x2048 .f32) (x2 : Vec F S8x2048 .f32) (x3 : Vec F S72x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2)
            ∗ owns (c : Thread nD τ) arg6 fullShare (out1_5 x0 x1 x2 x3)) -∗ K ⟨⟩))
      ⊢ wp frame (wpE (defs₀ (F := F)) Variants.none c none) E
          (cc1__combine_kernel i arg1 harg1 arg2 harg2 arg3 harg3 arg4 harg4 arg5 harg5 arg6 harg6) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-! ## The pipeline's proof data -/

/-- The proof data of pipeline 1 on core `c`: the arrays as the region finds them (`V`); after the body at
    point `t` each input's buffer at its block and each output's at `out1_W` of the input blocks; the invariant the
    class's (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t)
    | ⟨5, _⟩ => out1_5 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) := by dsimp only [dat1]
theorem after1_5 (c : Dev nD) (t : Fin cfg1.N) :
    (dat1 V c).after 5 t = out1_5 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (the library's body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## What the region leaves in its two output arrays

The grid has one point and every window's block there is its whole array (block index zero on both axes), so each input
block is the entry array itself, the one write-back of each output window covers its array, and the array ends holding
the body's payload of the whole entry arrays. -/

theorem hz1 : (![0, 0] : Fin 2 → Nat) = fun _ => 0 := funext fun a => by fin_cases a <;> rfl

/-- One covering store of a payload of whole-buffer loads leaves the payload of the buffers' contents. -/
theorem out1_4_eq (x0 x1 : Vec F S32x2048 .f32) (x2 : Vec F S8x2048 .f32) : out1_4 x0 x1 x2 = k1_pay1 x0 x1 x2 := by
  unfold out1_4
  rw [View.canon_unit_zero hz1]
  simp only [View.ld_unit_zero (S := S32x2048) hz1, View.ld_unit_zero (S := S8x2048) hz1]

theorem out1_5_eq (x0 x1 : Vec F S32x2048 .f32) (x2 : Vec F S8x2048 .f32) (x3 : Vec F S72x256 .f32) :
    out1_5 x0 x1 x2 x3 = k1_pay2 x0 x1 x2 x3 := by
  unfold out1_5
  rw [View.canon_unit_zero hz1]
  simp only [View.ld_unit_zero (S := S32x2048) hz1, View.ld_unit_zero (S := S8x2048) hz1, View.ld_unit_zero (S := S72x256) hz1]

/-- The printed index maps, decided over the grid's one point: every window's block index is zero on both axes. -/
theorem idx_facts1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Window 0's block at any point, read off contents `G` of its array, is `G`: the block sits at index zero. -/
theorem read_blk1_0 (t : Fin cfg1.N) (G : Vec F S32x2048 .f32) : ((cfg1.win 0).blk t).view.read (Elt F) G = G := by
  have hI := idx_facts1 t
  funext j
  rw [View.read_apply]
  refine congrArg G ?_
  funext a; apply Fin.ext
  match a with
  | ⟨0, _⟩ => show win1_0.index t (0 : Fin 2) * 32 + 1 * (j 0).val = (j 0).val; omega
  | ⟨1, _⟩ => show win1_0.index t (1 : Fin 2) * 2048 + 1 * (j 1).val = (j 1).val; omega

/-- Window 1's block at any point, read off contents `G` of its array, is `G`: the block sits at index zero. -/
theorem read_blk1_1 (t : Fin cfg1.N) (G : Vec F S32x2048 .f32) : ((cfg1.win 1).blk t).view.read (Elt F) G = G := by
  have hI := idx_facts1 t
  funext j
  rw [View.read_apply]
  refine congrArg G ?_
  funext a; apply Fin.ext
  match a with
  | ⟨0, _⟩ => show win1_1.index t (0 : Fin 2) * 32 + 1 * (j 0).val = (j 0).val; omega
  | ⟨1, _⟩ => show win1_1.index t (1 : Fin 2) * 2048 + 1 * (j 1).val = (j 1).val; omega

/-- Window 2's block at any point, read off contents `G` of its array, is `G`: the block sits at index zero. -/
theorem read_blk1_2 (t : Fin cfg1.N) (G : Vec F S8x2048 .f32) : ((cfg1.win 2).blk t).view.read (Elt F) G = G := by
  have hI := idx_facts1 t
  funext j
  rw [View.read_apply]
  refine congrArg G ?_
  funext a; apply Fin.ext
  match a with
  | ⟨0, _⟩ => show win1_2.index t (0 : Fin 2) * 8 + 1 * (j 0).val = (j 0).val; omega
  | ⟨1, _⟩ => show win1_2.index t (1 : Fin 2) * 2048 + 1 * (j 1).val = (j 1).val; omega

/-- Window 3's block at any point, read off contents `G` of its array, is `G`: the block sits at index zero. -/
theorem read_blk1_3 (t : Fin cfg1.N) (G : Vec F S72x256 .f32) : ((cfg1.win 3).blk t).view.read (Elt F) G = G := by
  have hI := idx_facts1 t
  funext j
  rw [View.read_apply]
  refine congrArg G ?_
  funext a; apply Fin.ext
  match a with
  | ⟨0, _⟩ => show win1_3.index t (0 : Fin 2) * 72 + 1 * (j 0).val = (j 0).val; omega
  | ⟨1, _⟩ => show win1_3.index t (1 : Fin 2) * 256 + 1 * (j 1).val = (j 1).val; omega

/-- Window 4's block at any point, read off contents `G` of its array, is `G`: the block sits at index zero. -/
theorem read_blk1_4 (t : Fin cfg1.N) (G : Vec F S72x2048 .f32) : ((cfg1.win 4).blk t).view.read (Elt F) G = G := by
  have hI := idx_facts1 t
  funext j
  rw [View.read_apply]
  refine congrArg G ?_
  funext a; apply Fin.ext
  match a with
  | ⟨0, _⟩ => show win1_4.index t (0 : Fin 2) * 72 + 1 * (j 0).val = (j 0).val; omega
  | ⟨1, _⟩ => show win1_4.index t (1 : Fin 2) * 2048 + 1 * (j 1).val = (j 1).val; omega

/-- Window 5's block at any point, read off contents `G` of its array, is `G`: the block sits at index zero. -/
theorem read_blk1_5 (t : Fin cfg1.N) (G : Vec F S256x2048 .f32) : ((cfg1.win 5).blk t).view.read (Elt F) G = G := by
  have hI := idx_facts1 t
  funext j
  rw [View.read_apply]
  refine congrArg G ?_
  funext a; apply Fin.ext
  match a with
  | ⟨0, _⟩ => show win1_5.index t (0 : Fin 2) * 256 + 1 * (j 0).val = (j 0).val; omega
  | ⟨1, _⟩ => show win1_5.index t (1 : Fin 2) * 2048 + 1 * (j 1).val = (j 1).val; omega

/-- Input window 0's block at any point is its whole entry array. -/
theorem iblk1_0_eq (c : Dev nD) (t : Fin cfg1.N) : iblk1 V c 0 t = V c main_v1 := by
  unfold iblk1
  exact read_blk1_0 t _

/-- Input window 1's block at any point is its whole entry array. -/
theorem iblk1_1_eq (c : Dev nD) (t : Fin cfg1.N) : iblk1 V c 1 t = V c main_v2 := by
  unfold iblk1
  exact read_blk1_1 t _

/-- Input window 2's block at any point is its whole entry array. -/
theorem iblk1_2_eq (c : Dev nD) (t : Fin cfg1.N) : iblk1 V c 2 t = V c main_arg1 := by
  unfold iblk1
  exact read_blk1_2 t _

/-- Input window 3's block at any point is its whole entry array. -/
theorem iblk1_3_eq (c : Dev nD) (t : Fin cfg1.N) : iblk1 V c 3 t = V c main_arg2 := by
  unfold iblk1
  exact read_blk1_3 t _

/-- Every index of output window 4's array is in the block the one point writes back. -/
theorem cover_arr1_4 (i : S72x2048.Idx) :
    ∃ t : Fin cfg1.N, (cfg1.win 4).flush t = true ∧ i ∈ ((cfg1.win 4).blk t).view.set := by
  refine ⟨t1_0, flush1_4 t1_0, ?_⟩
  have hI := idx_facts1 t1_0
  show i ∈ ((View.whole main_v3_0).slice (win1_4.rect t1_0)).set
  rw [View.set_slice_whole, Rect.mem_set_unit]
  intro a
  have hi0 : (i 0).val < 72 := (i 0).isLt
  have hi1 : (i 1).val < 2048 := (i 1).isLt
  match a with
  | ⟨0, _⟩ => show win1_4.index t1_0 (0 : Fin 2) * 72 ≤ (i 0).val ∧ (i 0).val < win1_4.index t1_0 (0 : Fin 2) * 72 + 72; omega
  | ⟨1, _⟩ => show win1_4.index t1_0 (1 : Fin 2) * 2048 ≤ (i 1).val ∧ (i 1).val < win1_4.index t1_0 (1 : Fin 2) * 2048 + 2048; omega

/-- Every index of output window 5's array is in the block the one point writes back. -/
theorem cover_arr1_5 (i : S256x2048.Idx) :
    ∃ t : Fin cfg1.N, (cfg1.win 5).flush t = true ∧ i ∈ ((cfg1.win 5).blk t).view.set := by
  refine ⟨t1_0, flush1_5 t1_0, ?_⟩
  have hI := idx_facts1 t1_0
  show i ∈ ((View.whole main_v3_1).slice (win1_5.rect t1_0)).set
  rw [View.set_slice_whole, Rect.mem_set_unit]
  intro a
  have hi0 : (i 0).val < 256 := (i 0).isLt
  have hi1 : (i 1).val < 2048 := (i 1).isLt
  match a with
  | ⟨0, _⟩ => show win1_5.index t1_0 (0 : Fin 2) * 256 ≤ (i 0).val ∧ (i 0).val < win1_5.index t1_0 (0 : Fin 2) * 256 + 256; omega
  | ⟨1, _⟩ => show win1_5.index t1_0 (1 : Fin 2) * 2048 ≤ (i 1).val ∧ (i 1).val < win1_5.index t1_0 (1 : Fin 2) * 2048 + 2048; omega

/-- What the point writes back to output window 4's array is the block of the payload of the whole entry arrays. -/
theorem flushed1_4_eq (c : Dev nD) (t : Fin cfg1.N) :
    (dat1 V c).flushed 4 t = ((cfg1.win 4).blk t).view.read (Elt F) (k1_pay1 (V c main_v1) (V c main_v2) (V c main_arg1)) := by
  show (cfg1.win 4).cut (grid1.coords t) ((dat1 V c).after 4 t) = _
  rw [after1_4, out1_4_eq, iblk1_0_eq, iblk1_1_eq, iblk1_2_eq, read_blk1_4]
  rfl

theorem flushed1_5_eq (c : Dev nD) (t : Fin cfg1.N) :
    (dat1 V c).flushed 5 t = ((cfg1.win 5).blk t).view.read (Elt F) (k1_pay2 (V c main_v1) (V c main_v2) (V c main_arg1) (V c main_arg2)) := by
  show (cfg1.win 5).cut (grid1.coords t) ((dat1 V c).after 5 t) = _
  rw [after1_5, out1_5_eq, iblk1_0_eq, iblk1_1_eq, iblk1_2_eq, iblk1_3_eq, read_blk1_5]
  rfl

/-- THE ARRAY of output window 4 (`main_v3_0`) after the region: the first payload of the whole entry arrays. -/
theorem final1_4 (c : Dev nD) : (dat1 V c).arrAt 4 cfg1.N = k1_pay1 (V c main_v1) (V c main_v2) (V c main_arg1) :=
  (dat1 V c).arrAt_eq_of_cover 4 _ (fun t _ => flushed1_4_eq V c t) cover_arr1_4

/-- THE ARRAY of output window 5 (`main_v3_1`) after the region: the second payload of the whole entry arrays. -/
theorem final1_5 (c : Dev nD) : (dat1 V c).arrAt 5 cfg1.N = k1_pay2 (V c main_v1) (V c main_v2) (V c main_arg1) (V c main_arg2) :=
  (dat1 V c).arrAt_eq_of_cover 5 _ (fun t _ => flushed1_5_eq V c t) cover_arr1_5

end Regions

end Cert.Kernel.Hand

end
-- ==== Proof.Kernel.Run.lean ====
/-
  The whole program: the first kernel's region, the two reshapes of its results, the second kernel's region. The buffer
  contents at each boundary are a fold from the launch memory (a region's arrays at what its write-backs leave, a
  reshape at its result); every weakly fair execution terminates, nothing faulting, and every unscoped buffer ends at
  the last boundary's contents `W3` — from which both the frame (each argument read back through the fold to its
  launch contents) and the results' values are read.
-/
import proofs.«161578_j60215441489999_2_alg».proof.Proof.Kernel.R0Frame
import proofs.«161578_j60215441489999_2_alg».proof.Proof.Kernel.Region1
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first region: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two reshapes (the second region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the second region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := W1_of_ne m ρ c main_arg1 (by decide)
    _ = m ((c : Thread nD τ).loc main_arg1) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W3_main_arg1 (c : Dev nD) : W3 m ρ c (Proc.devRef .tc main_arg1) = m ((c : Thread nD τ).loc main_arg1) :=
  ((W3_arr m ρ c 2).trans (((dat1 (V2 m ρ) c).arrAt_in 2 rfl _).trans (A_eq1 (V2 m ρ) c 2))).trans (W2_main_arg1 m ρ c)
theorem W3_main_arg2 (c : Dev nD) : W3 m ρ c (Proc.devRef .tc main_arg2) = m ((c : Thread nD τ).loc main_arg2) :=
  ((W3_arr m ρ c 3).trans (((dat1 (V2 m ρ) c).arrAt_in 3 rfl _).trans (A_eq1 (V2 m ρ) c 3))).trans (W2_main_arg2 m ρ c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]
    unfold Pipeline.ΦA
    iintro ⟨Hp, -, Hr⟩
    isplitl [Hr]; · iexact Hr
    iexact Hp
  hout c := by
    rw [Pipeline.ownSems0_none]
    have h1 : Pipeline.ΦA spec0 c ⊢ (iprop((∃ r, prngReg c r) ∗ BI.emp ∗ Pipeline.scopedRest (Pipeline.pin (pcfgs (F := F)) adm 0).spec c) : sProp 𝕄) := by
      unfold Pipeline.ΦA
      iintro ⟨Hr, Hp⟩
      isplitl [Hp]; · iexact Hp
      isplitr; · iempintro
      iexact Hr
    exact (hout0 (V0 m ρ) c).trans h1
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting, and
    every final state holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run m ρ)

end Cert.Kernel.Hand

end
-- ==== Proof.KernelIdeal.R0Defs.lean ====
/-
  The first kernel (the two row/column sums of the database) on its grid of 32 × 2 points: the two conditions of its
  body decided over the grid, where its accumulated output is idle, the memrefs a point runs on, and each window's
  block at a point, read off the contents `V` the region is entered with.
-/
import proofs.«161578_j60215441489999_2_alg».proof.Proof.Gen.KernelIdeal.Launch
import proofs.«161578_j60215441489999_2_alg».proof.Proof.Gen.KernelIdeal.Skeleton
import proofs.«161578_j60215441489999_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions over the grid -/

/-- "this is the first chunk of rows" (the accumulator is reset): the body's first conditional. -/
abbrev cond0_0 (i : grid0.Coords) : Prop := (Scalar.cmpi .ne (Scalar.extui (Scalar.cmpi .eq (BitVec.ofNat 32 (i 1).val) 0#32)) 0#32) = 1#1
/-- It holds at the even points (the grid's inner axis has two positions). -/
theorem hcond0_0 : ∀ t : Fin cfg0.N, cond0_0 (grid0.coords t) ↔ t.val % 2 = 0 :=
  (by decide +kernel : ∀ t : Fin grid0.N, cond0_0 (grid0.coords t) ↔ t.val % 2 = 0)

/-- "this is the last chunk of rows" (the accumulator is copied out): the body's second conditional. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_2 : ∀ t : Fin cfg0.N, cfg0.idle 2 (grid0.coords t) = false := by decide +kernel
/-- At an even point the accumulated output is not stored: its window is idle there and not written back. -/
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
/-- At an odd point it is stored (and written back). -/
theorem liveAt0_1_B : ∀ t : Fin cfg0.N, ¬cond0_0 (grid0.coords t) → cond0_1 (grid0.coords t) → cfg0.idle 1 (grid0.coords t) = false := by decide +kernel

/-! ## The memrefs a point runs on -/

abbrev VO0_1 : View sig .tc .vmem S1x1x2048 .f32 := (Memref.whole cc0_stg1_0 : Memref sig .tc .vmem S1x1x2048 .f32).view
abbrev VO0_2 : View sig .tc .vmem S1x1x1024 .f32 := (Memref.whole cc0_stg2_0 : Memref sig .tc .vmem S1x1x1024 .f32).view
abbrev ms0_0 (t : Fin cfg0.N) : Memref sig .tc .vmem S1x1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024 .f32 := win0_2.stage (cfg0.slots t 2)
abbrev hs0_2 (t : Fin cfg0.N) : (ms0_2 t).IsWhole := hstage0_2 ((cfg0.slots t 2).cast nbuf0_2)
/-- The accumulator: a whole scoped buffer of the kernel's own, carried from point to point. -/
abbrev scM0_0 : Memref sig .tc .vmem S1x1x2048 .f32 := Memref.whole cc0_scratch0
abbrev VS0_0 : View sig .tc .vmem S1x1x2048 .f32 := scM0_0.view

/-- The class invariant with the accumulator split off as a memref owned at some contents. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f)) ∗ (∃ r, prngReg c r)) := by
  unfold Pipeline.ΦA; rw [scopedRest0_eq]; simp only [scM0_0, owns_whole]; try rfl

/-! ## The windows' blocks -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
end

end Cert.KernelIdeal.Hand

end
-- ==== Proof.KernelIdeal.R0RunA.lean ====
/-
  The first kernel's body at an EVEN point (the first chunk of a relation's rows): the accumulator is reset to zero, the
  chunk's row sums are stored whole into the second output's buffer, the chunk's column sums are added into the
  accumulator, and the first output's buffer is left as found. The pieces each buffer ends with are the witness the
  symbolic run finds.
-/
import proofs.«161578_j60215441489999_2_alg».proof.Proof.KernelIdeal.R0Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1x1024x2048 .f32) (harg2 : arg2.IsWhole) (arg3 : Memref sig .tc .vmem S1x1x2048 .f32) (harg3 : arg3.IsWhole) (arg4 : Memref sig .tc .vmem S1x1x1024 .f32) (harg4 : arg4.IsWhole) (arg5 : Memref sig .tc .vmem S1x1x2048 .f32) (harg5 : arg5.IsWhole) (hc0 : cond0_0 i) (hc1 : ¬cond0_1 i)
    (x0 : Vec F S1x1024x2048 .f32) :
    Σ' (L2 : List (View.Piece (Elt F) S1x1x1024 .f32)), { LS0 : List (View.Piece (Elt F) S1x1x2048 .f32) //
      ∀ (xi1 : Vec F S1x1x2048 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__reduce_kernel i arg2 harg2 arg3 harg3 arg4 harg4 arg5 harg5) K } := by
  refine ⟨?_, ?_, fun xi1 E K => ?run⟩
  case run =>
    simp only [cc0__reduce_kernel_eq_skeleton]; unfold cc0__reduce_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KernelIdeal.R0RunB.lean ====
/-
  The first kernel's body at an ODD point (the last chunk of a relation's rows): the chunk's row sums are stored whole
  into the second output's buffer, the chunk's column sums are added into the accumulator the point before left, and
  the accumulator is copied whole into the first output's buffer. The pieces each buffer ends with are the witness the
  symbolic run finds.
-/
import proofs.«161578_j60215441489999_2_alg».proof.Proof.KernelIdeal.R0Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1x1024x2048 .f32) (harg2 : arg2.IsWhole) (arg3 : Memref sig .tc .vmem S1x1x2048 .f32) (harg3 : arg3.IsWhole) (arg4 : Memref sig .tc .vmem S1x1x1024 .f32) (harg4 : arg4.IsWhole) (arg5 : Memref sig .tc .vmem S1x1x2048 .f32) (harg5 : arg5.IsWhole) (hc0 : ¬cond0_0 i) (hc1 : cond0_1 i)
    (x0 : Vec F S1x1024x2048 .f32) (xs0 : Vec F S1x1x2048 .f32) :
    Σ' (L1 : List (View.Piece (Elt F) S1x1x2048 .f32)) (L2 : List (View.Piece (Elt F) S1x1x1024 .f32)), { LS0 : List (View.Piece (Elt F) S1x1x2048 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__reduce_kernel i arg2 harg2 arg3 harg3 arg4 harg4 arg5 harg5) K } := by
  refine ⟨?_, ?_, ?_, fun E K => ?run⟩
  case run =>
    simp only [cc0__reduce_kernel_eq_skeleton]; unfold cc0__reduce_kernel_skel
    unfold owns
    iintro ⟨⟨%f0, %hf0, H0⟩, ⟨%d1, %f1, -, H1⟩, ⟨%d2, %f2, -, H2⟩, ⟨%fs0, %hfs0, HS0⟩, Hk⟩
    obtain rfl := harg2.eq_unread hf0; obtain rfl := harg5.eq_unread hfs0
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    iexists _; iexact HS0

end Cert.KernelIdeal.Hand

end
-- ==== Proof.KernelIdeal.R0Frame.lean ====
/-
  The first kernel over its whole grid. Per case of the body, what its stores leave in each buffer (the pieces read
  back: they tile the buffer, so they cover it); point by point, what the two outputs' staging buffers and the
  accumulator hold after the body (`outsAt0`: an even point starts from a zeroed accumulator, an odd point from what
  the even point before it left); the region's invariant with the accumulator at those contents; the proof data; and
  the body obligation at every point.
-/
import proofs.«161578_j60215441489999_2_alg».proof.Proof.KernelIdeal.R0RunA
import proofs.«161578_j60215441489999_2_alg».proof.Proof.KernelIdeal.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

theorem cover0_A_2 (c : Dev nD) (i : grid0.Coords) (arg2 : Memref sig .tc .vmem S1x1024x2048 .f32) (harg2 : arg2.IsWhole) (arg3 : Memref sig .tc .vmem S1x1x2048 .f32) (harg3 : arg3.IsWhole) (arg4 : Memref sig .tc .vmem S1x1x1024 .f32) (harg4 : arg4.IsWhole) (arg5 : Memref sig .tc .vmem S1x1x2048 .f32) (harg5 : arg5.IsWhole) (hc0 : cond0_0 i) (hc1 : ¬cond0_1 i) (x0 : Vec F S1x1024x2048 .f32) (y : S1x1x1024.Idx) :
    ∃ pc ∈ (kernelRun0_A c i arg2 harg2 arg3 harg3 arg4 harg4 arg5 harg5 hc0 hc1 x0).1, y ∈ pc.1.set :=
  View.cover_of_tiledL (kernelRun0_A c i arg2 harg2 arg3 harg3 arg4 harg4 arg5 harg5 hc0 hc1 x0).1 S1x1x1024.size (by sl_kernel_rfl) y
/-- The second output's buffer after an even point: its pieces read back. -/
def out0_A_2 (c : Dev nD) (i : grid0.Coords) (arg2 : Memref sig .tc .vmem S1x1024x2048 .f32) (harg2 : arg2.IsWhole) (arg3 : Memref sig .tc .vmem S1x1x2048 .f32) (harg3 : arg3.IsWhole) (arg4 : Memref sig .tc .vmem S1x1x1024 .f32) (harg4 : arg4.IsWhole) (arg5 : Memref sig .tc .vmem S1x1x2048 .f32) (harg5 : arg5.IsWhole) (hc0 : cond0_0 i) (hc1 : ¬cond0_1 i) (x0 : Vec F S1x1024x2048 .f32) : Vec F S1x1x1024 .f32 :=
  VO0_2.read (Elt F) (VO0_2.writes (Elt F) VO0_2.junk (kernelRun0_A c i arg2 harg2 arg3 harg3 arg4 harg4 arg5 harg5 hc0 hc1 x0).1)
theorem scover0_A_0 (c : Dev nD) (i : grid0.Coords) (arg2 : Memref sig .tc .vmem S1x1024x2048 .f32) (harg2 : arg2.IsWhole) (arg3 : Memref sig .tc .vmem S1x1x2048 .f32) (harg3 : arg3.IsWhole) (arg4 : Memref sig .tc .vmem S1x1x1024 .f32) (harg4 : arg4.IsWhole) (arg5 : Memref sig .tc .vmem S1x1x2048 .f32) (harg5 : arg5.IsWhole) (hc0 : cond0_0 i) (hc1 : ¬cond0_1 i) (x0 : Vec F S1x1024x2048 .f32) (y : S1x1x2048.Idx) :
    ∃ pc ∈ (kernelRun0_A c i arg2 harg2 arg3 harg3 arg4 harg4 arg5 harg5 hc0 hc1 x0).2.1, y ∈ pc.1.set :=
  View.cover_of_tiledL (kernelRun0_A c i arg2 harg2 arg3 harg3 arg4 harg4 arg5 harg5 hc0 hc1 x0).2.1 S1x1x2048.size (by sl_kernel_rfl) y
/-- The accumulator after an even point. -/
def sout0_A_0 (c : Dev nD) (i : grid0.Coords) (arg2 : Memref sig .tc .vmem S1x1024x2048 .f32) (harg2 : arg2.IsWhole) (arg3 : Memref sig .tc .vmem S1x1x2048 .f32) (harg3 : arg3.IsWhole) (arg4 : Memref sig .tc .vmem S1x1x1024 .f32) (harg4 : arg4.IsWhole) (arg5 : Memref sig .tc .vmem S1x1x2048 .f32) (harg5 : arg5.IsWhole) (hc0 : cond0_0 i) (hc1 : ¬cond0_1 i) (x0 : Vec F S1x1024x2048 .f32) : Vec F S1x1x2048 .f32 :=
  VS0_0.read (Elt F) (VS0_0.writes (Elt F) VS0_0.junk (kernelRun0_A c i arg2 harg2 arg3 harg3 arg4 harg4 arg5 harg5 hc0 hc1 x0).2.1)

theorem cover0_B_1 (c : Dev nD) (i : grid0.Coords) (arg2 : Memref sig .tc .vmem S1x1024x2048 .f32) (harg2 : arg2.IsWhole) (arg3 : Memref sig .tc .vmem S1x1x2048 .f32) (harg3 : arg3.IsWhole) (arg4 : Memref sig .tc .vmem S1x1x1024 .f32) (harg4 : arg4.IsWhole) (arg5 : Memref sig .tc .vmem S1x1x2048 .f32) (harg5 : arg5.IsWhole) (hc0 : ¬cond0_0 i) (hc1 : cond0_1 i) (x0 : Vec F S1x1024x2048 .f32) (xs0 : Vec F S1x1x2048 .f32) (y : S1x1x2048.Idx) :
    ∃ pc ∈ (kernelRun0_B c i arg2 harg2 arg3 harg3 arg4 harg4 arg5 harg5 hc0 hc1 x0 xs0).1, y ∈ pc.1.set :=
  View.cover_of_tiledL (kernelRun0_B c i arg2 harg2 arg3 harg3 arg4 harg4 arg5 harg5 hc0 hc1 x0 xs0).1 S1x1x2048.size (by sl_kernel_rfl) y
/-- The first output's buffer after an odd point. -/
def out0_B_1 (c : Dev nD) (i : grid0.Coords) (arg2 : Memref sig .tc .vmem S1x1024x2048 .f32) (harg2 : arg2.IsWhole) (arg3 : Memref sig .tc .vmem S1x1x2048 .f32) (harg3 : arg3.IsWhole) (arg4 : Memref sig .tc .vmem S1x1x1024 .f32) (harg4 : arg4.IsWhole) (arg5 : Memref sig .tc .vmem S1x1x2048 .f32) (harg5 : arg5.IsWhole) (hc0 : ¬cond0_0 i) (hc1 : cond0_1 i) (x0 : Vec F S1x1024x2048 .f32) (xs0 : Vec F S1x1x2048 .f32) : Vec F S1x1x2048 .f32 :=
  VO0_1.read (Elt F) (VO0_1.writes (Elt F) VO0_1.junk (kernelRun0_B c i arg2 harg2 arg3 harg3 arg4 harg4 arg5 harg5 hc0 hc1 x0 xs0).1)
theorem cover0_B_2 (c : Dev nD) (i : grid0.Coords) (arg2 : Memref sig .tc .vmem S1x1024x2048 .f32) (harg2 : arg2.IsWhole) (arg3 : Memref sig .tc .vmem S1x1x2048 .f32) (harg3 : arg3.IsWhole) (arg4 : Memref sig .tc .vmem S1x1x1024 .f32) (harg4 : arg4.IsWhole) (arg5 : Memref sig .tc .vmem S1x1x2048 .f32) (harg5 : arg5.IsWhole) (hc0 : ¬cond0_0 i) (hc1 : cond0_1 i) (x0 : Vec F S1x1024x2048 .f32) (xs0 : Vec F S1x1x2048 .f32) (y : S1x1x1024.Idx) :
    ∃ pc ∈ (kernelRun0_B c i arg2 harg2 arg3 harg3 arg4 harg4 arg5 harg5 hc0 hc1 x0 xs0).2.1, y ∈ pc.1.set :=
  View.cover_of_tiledL (kernelRun0_B c i arg2 harg2 arg3 harg3 arg4 harg4 arg5 harg5 hc0 hc1 x0 xs0).2.1 S1x1x1024.size (by sl_kernel_rfl) y
/-- The second output's buffer after an odd point. -/
def out0_B_2 (c : Dev nD) (i : grid0.Coords) (arg2 : Memref sig .tc .vmem S1x1024x2048 .f32) (harg2 : arg2.IsWhole) (arg3 : Memref sig .tc .vmem S1x1x2048 .f32) (harg3 : arg3.IsWhole) (arg4 : Memref sig .tc .vmem S1x1x1024 .f32) (harg4 : arg4.IsWhole) (arg5 : Memref sig .tc .vmem S1x1x2048 .f32) (harg5 : arg5.IsWhole) (hc0 : ¬cond0_0 i) (hc1 : cond0_1 i) (x0 : Vec F S1x1024x2048 .f32) (xs0 : Vec F S1x1x2048 .f32) : Vec F S1x1x1024 .f32 :=
  VO0_2.read (Elt F) (VO0_2.writes (Elt F) VO0_2.junk (kernelRun0_B c i arg2 harg2 arg3 harg3 arg4 harg4 arg5 harg5 hc0 hc1 x0 xs0).2.1)
theorem scover0_B_0 (c : Dev nD) (i : grid0.Coords) (arg2 : Memref sig .tc .vmem S1x1024x2048 .f32) (harg2 : arg2.IsWhole) (arg3 : Memref sig .tc .vmem S1x1x2048 .f32) (harg3 : arg3.IsWhole) (arg4 : Memref sig .tc .vmem S1x1x1024 .f32) (harg4 : arg4.IsWhole) (arg5 : Memref sig .tc .vmem S1x1x2048 .f32) (harg5 : arg5.IsWhole) (hc0 : ¬cond0_0 i) (hc1 : cond0_1 i) (x0 : Vec F S1x1024x2048 .f32) (xs0 : Vec F S1x1x2048 .f32) (y : S1x1x2048.Idx) :
    ∃ pc ∈ (kernelRun0_B c i arg2 harg2 arg3 harg3 arg4 harg4 arg5 harg5 hc0 hc1 x0 xs0).2.2.1, y ∈ pc.1.set :=
  View.cover_of_tiledL (kernelRun0_B c i arg2 harg2 arg3 harg3 arg4 harg4 arg5 harg5 hc0 hc1 x0 xs0).2.2.1 S1x1x2048.size (by sl_kernel_rfl) y
/-- The accumulator after an odd point. -/
def sout0_B_0 (c : Dev nD) (i : grid0.Coords) (arg2 : Memref sig .tc .vmem S1x1024x2048 .f32) (harg2 : arg2.IsWhole) (arg3 : Memref sig .tc .vmem S1x1x2048 .f32) (harg3 : arg3.IsWhole) (arg4 : Memref sig .tc .vmem S1x1x1024 .f32) (harg4 : arg4.IsWhole) (arg5 : Memref sig .tc .vmem S1x1x2048 .f32) (harg5 : arg5.IsWhole) (hc0 : ¬cond0_0 i) (hc1 : cond0_1 i) (x0 : Vec F S1x1024x2048 .f32) (xs0 : Vec F S1x1x2048 .f32) : Vec F S1x1x2048 .f32 :=
  VS0_0.read (Elt F) (VS0_0.writes (Elt F) VS0_0.junk (kernelRun0_B c i arg2 harg2 arg3 harg3 arg4 harg4 arg5 harg5 hc0 hc1 x0 xs0).2.2.1)

/-! ## Point by point -/

theorem hcA (t : Fin cfg0.N) (h0 : t.val % 2 = 0) : ¬cond0_1 (grid0.coords t) := fun h => by
  have := (hcond0_1 t).mp h; omega
theorem hcB (t : Fin cfg0.N) (h0 : ¬t.val % 2 = 0) : cond0_1 (grid0.coords t) := (hcond0_1 t).mpr (by omega)

section
variable (V : (c : Dev nD) → (b : Ref sig .tc) → Buf (Elt F) ((c : Thread nD τ).loc b))

/-- What the first output's buffer, the second output's buffer and the accumulator hold after the body at position
    `n`. (At an even point the first output's buffer is left as found and never consulted: the first component there is
    a placeholder.) -/
def outsAt0 (c : Dev nD) : (n : ℕ) → n < cfg0.N → Vec F S1x1x2048 .f32 × Vec F S1x1x1024 .f32 × Vec F S1x1x2048 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (hcA ⟨0, hn⟩ (Nat.zero_mod _)) (iblk0 V c 0 ⟨0, hn⟩),
      out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (hcA ⟨0, hn⟩ (Nat.zero_mod _)) (iblk0 V c 0 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (hcA ⟨0, hn⟩ (Nat.zero_mod _)) (iblk0 V c 0 ⟨0, hn⟩))
  | n + 1, hn =>
    if h0 : (n + 1) % 2 = 0 then
      (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (hcA ⟨n + 1, hn⟩ h0) (iblk0 V c 0 ⟨n + 1, hn⟩),
        out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (hcA ⟨n + 1, hn⟩ h0) (iblk0 V c 0 ⟨n + 1, hn⟩),
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (hcA ⟨n + 1, hn⟩ h0) (iblk0 V c 0 ⟨n + 1, hn⟩))
    else
      (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (hcB ⟨n + 1, hn⟩ h0) (iblk0 V c 0 ⟨n + 1, hn⟩) (outsAt0 c n (Nat.lt_of_succ_lt hn)).2.2,
        out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (hcB ⟨n + 1, hn⟩ h0) (iblk0 V c 0 ⟨n + 1, hn⟩) (outsAt0 c n (Nat.lt_of_succ_lt hn)).2.2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (hcB ⟨n + 1, hn⟩ h0) (iblk0 V c 0 ⟨n + 1, hn⟩) (outsAt0 c n (Nat.lt_of_succ_lt hn)).2.2)

theorem outsAt0_A (c : Dev nD) (t : Fin cfg0.N) (h0 : t.val % 2 = 0) :
    outsAt0 V c t.val t.isLt = (sout0_A_0 c (grid0.coords t) (ms0_0 t) (hs0_0 t) (ms0_1 t) (hs0_1 t) (ms0_2 t) (hs0_2 t) scM0_0 (Memref.isWhole_whole _) ((hcond0_0 t).mpr h0) (hcA t h0) (iblk0 V c 0 t),
      out0_A_2 c (grid0.coords t) (ms0_0 t) (hs0_0 t) (ms0_1 t) (hs0_1 t) (ms0_2 t) (hs0_2 t) scM0_0 (Memref.isWhole_whole _) ((hcond0_0 t).mpr h0) (hcA t h0) (iblk0 V c 0 t),
      sout0_A_0 c (grid0.coords t) (ms0_0 t) (hs0_0 t) (ms0_1 t) (hs0_1 t) (ms0_2 t) (hs0_2 t) scM0_0 (Memref.isWhole_whole _) ((hcond0_0 t).mpr h0) (hcA t h0) (iblk0 V c 0 t)) := by
  obtain ⟨n, hn⟩ := t
  cases n with
  | zero => exact rfl
  | succ n => exact (dif_pos h0).trans rfl

theorem outsAt0_B (c : Dev nD) (t : Fin cfg0.N) (h0 : ¬t.val % 2 = 0) :
    outsAt0 V c t.val t.isLt = (out0_B_1 c (grid0.coords t) (ms0_0 t) (hs0_0 t) (ms0_1 t) (hs0_1 t) (ms0_2 t) (hs0_2 t) scM0_0 (Memref.isWhole_whole _) (fun h => h0 ((hcond0_0 t).mp h)) (hcB t h0) (iblk0 V c 0 t) (outsAt0 V c (t.val - 1) (Nat.lt_of_le_of_lt (Nat.sub_le _ _) t.isLt)).2.2,
      out0_B_2 c (grid0.coords t) (ms0_0 t) (hs0_0 t) (ms0_1 t) (hs0_1 t) (ms0_2 t) (hs0_2 t) scM0_0 (Memref.isWhole_whole _) (fun h => h0 ((hcond0_0 t).mp h)) (hcB t h0) (iblk0 V c 0 t) (outsAt0 V c (t.val - 1) (Nat.lt_of_le_of_lt (Nat.sub_le _ _) t.isLt)).2.2,
      sout0_B_0 c (grid0.coords t) (ms0_0 t) (hs0_0 t) (ms0_1 t) (hs0_1 t) (ms0_2 t) (hs0_2 t) scM0_0 (Memref.isWhole_whole _) (fun h => h0 ((hcond0_0 t).mp h)) (hcB t h0) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The invariant -/

/-- The scoped buffers of the second kernel, which this region leaves alone, each whole at some contents. -/
abbrev restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f))

theorem PhiA0_eq' (c : Dev nD) :
    (Pipeline.ΦA spec0 c : sProp 𝕄) = iprop(iprop((∃ d, owns (c : Thread nD τ) scM0_0 fullShare d) ∗ restS (F := F) c) ∗ (∃ r, prngReg c r)) :=
  PhiA0_eq c

/-- The region's invariant before position `n`: before the first point the class's (every scoped buffer at anything);
    afterwards the accumulator at what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ restS (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2) ∗ restS (F := F) c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ restS (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 2 t = owns (c : Thread nD τ) (ms0_2 t) fullShare ((dat0 V c).after 2 t) from by
    unfold Dat.leavesExact; rw [liveAt0_2 t], after0_2]
  by_cases h0 : t.val % 2 = 0
  · rw [Dat.leavesExact_idle (dat0 V c) 1 t (idleAt0_1_A t ((hcond0_0 t).mpr h0) (hcA t h0)) (noFlush0_1_A t ((hcond0_0 t).mpr h0) (hcA t h0))]
    rw [outsAt0_A V c t h0]
    unfold sout0_A_0 out0_A_2; (try dsimp only)
    by_cases hz : t.val = 0
    · rw [PhiS_castSucc V c t, PhiS_zero V c _ _ hz, PhiA0_eq']
      iintro ⟨⟨⟨HS0, Hrest⟩, Hg⟩, Ho, ⟨%d0, H0⟩, ⟨%d1, H1⟩, ⟨%d2, H2⟩⟩
      iapply ((kernelRun0_A c (grid0.coords t) _ _ _ _ _ _ _ _ ((hcond0_0 t).mpr h0) (hcA t h0) (iblk0 V c 0 t)).2.2 _ Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _)
          iexact Hrest
        iexact Hg
      isplitl [Ho]; · iexact Ho
      isplitl [H0]; · iexact H0
      isplitl [H1]; · iexists _; iexact H1
      unfold owns; iexists _; isplitr
      swap; · iexact H2
      ipureintro; exact View.read_writes_of_cover _ _ _ _ _ (cover0_A_2 c _ _ _ _ _ _ _ _ _ _ _ _)
    · rw [PhiS_castSucc V c t, PhiS_pos V c _ _ hz]
      iintro ⟨⟨⟨HS0, Hrest⟩, Hg⟩, Ho, ⟨%d0, H0⟩, ⟨%d1, H1⟩, ⟨%d2, H2⟩⟩
      iapply ((kernelRun0_A c (grid0.coords t) _ _ _ _ _ _ _ _ ((hcond0_0 t).mpr h0) (hcA t h0) (iblk0 V c 0 t)).2.2 _ Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _)
          iexact Hrest
        iexact Hg
      isplitl [Ho]; · iexact Ho
      isplitl [H0]; · iexact H0
      isplitl [H1]; · iexists _; iexact H1
      unfold owns; iexists _; isplitr
      swap; · iexact H2
      ipureintro; exact View.read_writes_of_cover _ _ _ _ _ (cover0_A_2 c _ _ _ _ _ _ _ _ _ _ _ _)
  · rw [show (dat0 V c).leavesExact 1 t = owns (c : Thread nD τ) (ms0_1 t) fullShare ((dat0 V c).after 1 t) from by
      unfold Dat.leavesExact; rw [liveAt0_1_B t (fun h => h0 ((hcond0_0 t).mp h)) (hcB t h0)], after0_1]
    rw [outsAt0_B V c t h0]
    unfold out0_B_1 out0_B_2 sout0_B_0; (try dsimp only)
    have hz : t.val ≠ 0 := fun hz => h0 (by rw [hz])
    rw [PhiS_castSucc V c t, PhiS_pos V c _ _ hz]
    iintro ⟨⟨⟨HS0, Hrest⟩, Hg⟩, Ho, ⟨%d0, H0⟩, ⟨%d1, H1⟩, ⟨%d2, H2⟩⟩
    iapply ((kernelRun0_B c (grid0.coords t) _ _ _ _ _ _ _ _ (fun h => h0 ((hcond0_0 t).mp h)) (hcB t h0) (iblk0 V c 0 t) _).2.2.2 Set.univ _)
    isplitl [H0]; · iexact H0
    isplitl [H1]; · iexists _; iexact H1
    isplitl [H2]; · iexists _; iexact H2
    isplitl [HS0]; · iexact HS0
    iintro ⟨H0, ⟨%e1, H1⟩, ⟨%e2, H2⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_B_0 c _ _ _ _ _ _ _ _ _ _ _ _ _)
        iexact Hrest
      iexact Hg
    isplitl [Ho]; · iexact Ho
    isplitl [H0]; · iexact H0
    isplitl [H1]
    · unfold owns; iexists _; isplitr
      swap; · iexact H1
      ipureintro; exact View.read_writes_of_cover _ _ _ _ _ (cover0_B_1 c _ _ _ _ _ _ _ _ _ _ _ _ _)
    unfold owns; iexists _; isplitr
    swap; · iexact H2
    ipureintro; exact View.read_writes_of_cover _ _ _ _ _ (cover0_B_2 c _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- and after the last point the invariant gives it back, the accumulator's contents forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl, PhiS_pos V c _ _ ht, PhiA0_eq']
  iintro ⟨⟨HS0, Hrest⟩, Hg⟩
  isplitl [HS0 Hrest]
  · isplitl [HS0]
    · iexists _; iexact HS0
    iexact Hrest
  iexact Hg
end

end Cert.KernelIdeal.Hand

end
-- ==== Proof.KernelIdeal.Region1.lean ====
/- The class-A half of REGION 1 of @main (the second pallas_call, pipeline `cfg1`, kernel function
   `cc1__combine_kernel`) at a PARAMETER `V`, the TensorCore's buffer contents when the region is entered: each window's
   block at the grid's one point, what the body leaves in each output window's staging buffer as a function of the input
   blocks, the body's triple, the pipeline's proof data and the body obligation; then what the region leaves in its
   two output arrays, as the payloads of the whole entry arrays. Generic in the float interpretation `F`. -/
import proofs.«161578_j60215441489999_2_alg».proof.Proof.Gen.KernelIdeal.Launch
import proofs.«161578_j60215441489999_2_alg».proof.Proof.Gen.KernelIdeal.Skeleton
import proofs.«161578_j60215441489999_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of long axes: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev r1_0 : Rect S32x2048 := Rect.unit (s := S32x2048) ![0, 0] S32x2048.size inb_S32x2048_S32x2048_0_0
abbrev r1_1 : Rect S8x2048 := Rect.unit (s := S8x2048) ![0, 0] S8x2048.size inb_S8x2048_S8x2048_0_0
abbrev r1_2 : Rect S72x256 := Rect.unit (s := S72x256) ![0, 0] S72x256.size inb_S72x256_S72x256_0_0
abbrev r1_3 : Rect S72x2048 := Rect.unit (s := S72x2048) ![0, 0] S72x2048.size inb_S72x2048_S72x2048_0_0
abbrev r1_4 : Rect S256x2048 := Rect.unit (s := S256x2048) ![0, 0] S256x2048.size inb_S256x2048_S256x2048_0_0

/-! ## What the body leaves in each output window's buffer -/

/-- Window 4's staging buffer after the body, from the input windows' blocks: its one store as a piece. -/
def out1_4 (x0 x1 : Vec F S32x2048 .f32) (x2 : Vec F S8x2048 .f32) : Vec F S72x2048 .f32 :=
  View.canon [⟨r1_3, k1_pay1 (View.ld x0 r1_0) (View.ld x1 r1_0) (View.ld x2 r1_1)⟩]

/-- Window 5's staging buffer after the body, from the input windows' blocks: its one store as a piece. -/
def out1_5 (x0 x1 : Vec F S32x2048 .f32) (x2 : Vec F S8x2048 .f32) (x3 : Vec F S72x256 .f32) : Vec F S256x2048 .f32 :=
  View.canon [⟨r1_4, k1_pay2 (View.ld x0 r1_0) (View.ld x1 r1_0) (View.ld x2 r1_1) (View.ld x3 r1_2)⟩]

/-- The one store of window 4 tiles its buffer (checked by evaluation), so it covers it. -/
theorem cover1_4 (p0 : Vec F S72x2048 .f32) (y : S72x2048.Idx) :
    ∃ pc ∈ ([⟨r1_3, p0⟩] : List (View.Piece (Elt F) S72x2048 .f32)), y ∈ pc.1.set :=
  View.cover_of_tiled [⟨r1_3, p0⟩] S72x2048.size (by rfl) y

/-- The one store of window 5 tiles its buffer (checked by evaluation), so it covers it. -/
theorem cover1_5 (p0 : Vec F S256x2048 .f32) (y : S256x2048.Idx) :
    ∃ pc ∈ ([⟨r1_4, p0⟩] : List (View.Piece (Elt F) S256x2048 .f32)), y ∈ pc.1.set :=
  View.cover_of_tiled [⟨r1_4, p0⟩] S256x2048.size (by rfl) y

/-! ## The body's triple -/

set_option maxHeartbeats 4000000 in
/-- The kernel body on whole staging memrefs, the inputs' at read contents `xW` and the outputs' at anything, runs to
    the continuation holding the inputs' as they were and each output's at `out1_W` of the inputs'. The body also
    loads each output buffer before it stores it whole; what those loads read is used by no store. -/
theorem sound_kernel1 (c : Dev nD) (E : Set ℕ) (i : grid1.Coords)
    (arg1 : Memref sig .tc .vmem S32x2048 .f32) (harg1 : arg1.IsWhole) (arg2 : Memref sig .tc .vmem S32x2048 .f32) (harg2 : arg2.IsWhole)
    (arg3 : Memref sig .tc .vmem S8x2048 .f32) (harg3 : arg3.IsWhole) (arg4 : Memref sig .tc .vmem S72x256 .f32) (harg4 : arg4.IsWhole)
    (arg5 : Memref sig .tc .vmem S72x2048 .f32) (harg5 : arg5.IsWhole) (arg6 : Memref sig .tc .vmem S256x2048 .f32) (harg6 : arg6.IsWhole)
    (x0 x1 : Vec F S32x2048 .f32) (x2 : Vec F S8x2048 .f32) (x3 : Vec F S72x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2)
            ∗ owns (c : Thread nD τ) arg6 fullShare (out1_5 x0 x1 x2 x3)) -∗ K ⟨⟩))
      ⊢ wp frame (wpE (defs₀ (F := F)) Variants.none c none) E
          (cc1__combine_kernel i arg1 harg1 arg2 harg2 arg3 harg3 arg4 harg4 arg5 harg5 arg6 harg6) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-! ## The pipeline's proof data -/

/-- The proof data of pipeline 1 on core `c`: the arrays as the region finds them (`V`); after the body at
    point `t` each input's buffer at its block and each output's at `out1_W` of the input blocks; the invariant the
    class's (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t)
    | ⟨5, _⟩ => out1_5 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) := by dsimp only [dat1]
theorem after1_5 (c : Dev nD) (t : Fin cfg1.N) :
    (dat1 V c).after 5 t = out1_5 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (the library's body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## What the region leaves in its two output arrays

The grid has one point and every window's block there is its whole array (block index zero on both axes), so each input
block is the entry array itself, the one write-back of each output window covers its array, and the array ends holding
the body's payload of the whole entry arrays. -/

theorem hz1 : (![0, 0] : Fin 2 → Nat) = fun _ => 0 := funext fun a => by fin_cases a <;> rfl

/-- One covering store of a payload of whole-buffer loads leaves the payload of the buffers' contents. -/
theorem out1_4_eq (x0 x1 : Vec F S32x2048 .f32) (x2 : Vec F S8x2048 .f32) : out1_4 x0 x1 x2 = k1_pay1 x0 x1 x2 := by
  unfold out1_4
  rw [View.canon_unit_zero hz1]
  simp only [View.ld_unit_zero (S := S32x2048) hz1, View.ld_unit_zero (S := S8x2048) hz1]

theorem out1_5_eq (x0 x1 : Vec F S32x2048 .f32) (x2 : Vec F S8x2048 .f32) (x3 : Vec F S72x256 .f32) :
    out1_5 x0 x1 x2 x3 = k1_pay2 x0 x1 x2 x3 := by
  unfold out1_5
  rw [View.canon_unit_zero hz1]
  simp only [View.ld_unit_zero (S := S32x2048) hz1, View.ld_unit_zero (S := S8x2048) hz1, View.ld_unit_zero (S := S72x256) hz1]

/-- The printed index maps, decided over the grid's one point: every window's block index is zero on both axes. -/
theorem idx_facts1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Window 0's block at any point, read off contents `G` of its array, is `G`: the block sits at index zero. -/
theorem read_blk1_0 (t : Fin cfg1.N) (G : Vec F S32x2048 .f32) : ((cfg1.win 0).blk t).view.read (Elt F) G = G := by
  have hI := idx_facts1 t
  funext j
  rw [View.read_apply]
  refine congrArg G ?_
  funext a; apply Fin.ext
  match a with
  | ⟨0, _⟩ => show win1_0.index t (0 : Fin 2) * 32 + 1 * (j 0).val = (j 0).val; omega
  | ⟨1, _⟩ => show win1_0.index t (1 : Fin 2) * 2048 + 1 * (j 1).val = (j 1).val; omega

/-- Window 1's block at any point, read off contents `G` of its array, is `G`: the block sits at index zero. -/
theorem read_blk1_1 (t : Fin cfg1.N) (G : Vec F S32x2048 .f32) : ((cfg1.win 1).blk t).view.read (Elt F) G = G := by
  have hI := idx_facts1 t
  funext j
  rw [View.read_apply]
  refine congrArg G ?_
  funext a; apply Fin.ext
  match a with
  | ⟨0, _⟩ => show win1_1.index t (0 : Fin 2) * 32 + 1 * (j 0).val = (j 0).val; omega
  | ⟨1, _⟩ => show win1_1.index t (1 : Fin 2) * 2048 + 1 * (j 1).val = (j 1).val; omega

/-- Window 2's block at any point, read off contents `G` of its array, is `G`: the block sits at index zero. -/
theorem read_blk1_2 (t : Fin cfg1.N) (G : Vec F S8x2048 .f32) : ((cfg1.win 2).blk t).view.read (Elt F) G = G := by
  have hI := idx_facts1 t
  funext j
  rw [View.read_apply]
  refine congrArg G ?_
  funext a; apply Fin.ext
  match a with
  | ⟨0, _⟩ => show win1_2.index t (0 : Fin 2) * 8 + 1 * (j 0).val = (j 0).val; omega
  | ⟨1, _⟩ => show win1_2.index t (1 : Fin 2) * 2048 + 1 * (j 1).val = (j 1).val; omega

/-- Window 3's block at any point, read off contents `G` of its array, is `G`: the block sits at index zero. -/
theorem read_blk1_3 (t : Fin cfg1.N) (G : Vec F S72x256 .f32) : ((cfg1.win 3).blk t).view.read (Elt F) G = G := by
  have hI := idx_facts1 t
  funext j
  rw [View.read_apply]
  refine congrArg G ?_
  funext a; apply Fin.ext
  match a with
  | ⟨0, _⟩ => show win1_3.index t (0 : Fin 2) * 72 + 1 * (j 0).val = (j 0).val; omega
  | ⟨1, _⟩ => show win1_3.index t (1 : Fin 2) * 256 + 1 * (j 1).val = (j 1).val; omega

/-- Window 4's block at any point, read off contents `G` of its array, is `G`: the block sits at index zero. -/
theorem read_blk1_4 (t : Fin cfg1.N) (G : Vec F S72x2048 .f32) : ((cfg1.win 4).blk t).view.read (Elt F) G = G := by
  have hI := idx_facts1 t
  funext j
  rw [View.read_apply]
  refine congrArg G ?_
  funext a; apply Fin.ext
  match a with
  | ⟨0, _⟩ => show win1_4.index t (0 : Fin 2) * 72 + 1 * (j 0).val = (j 0).val; omega
  | ⟨1, _⟩ => show win1_4.index t (1 : Fin 2) * 2048 + 1 * (j 1).val = (j 1).val; omega

/-- Window 5's block at any point, read off contents `G` of its array, is `G`: the block sits at index zero. -/
theorem read_blk1_5 (t : Fin cfg1.N) (G : Vec F S256x2048 .f32) : ((cfg1.win 5).blk t).view.read (Elt F) G = G := by
  have hI := idx_facts1 t
  funext j
  rw [View.read_apply]
  refine congrArg G ?_
  funext a; apply Fin.ext
  match a with
  | ⟨0, _⟩ => show win1_5.index t (0 : Fin 2) * 256 + 1 * (j 0).val = (j 0).val; omega
  | ⟨1, _⟩ => show win1_5.index t (1 : Fin 2) * 2048 + 1 * (j 1).val = (j 1).val; omega

/-- Input window 0's block at any point is its whole entry array. -/
theorem iblk1_0_eq (c : Dev nD) (t : Fin cfg1.N) : iblk1 V c 0 t = V c main_v1 := by
  unfold iblk1
  exact read_blk1_0 t _

/-- Input window 1's block at any point is its whole entry array. -/
theorem iblk1_1_eq (c : Dev nD) (t : Fin cfg1.N) : iblk1 V c 1 t = V c main_v2 := by
  unfold iblk1
  exact read_blk1_1 t _

/-- Input window 2's block at any point is its whole entry array. -/
theorem iblk1_2_eq (c : Dev nD) (t : Fin cfg1.N) : iblk1 V c 2 t = V c main_arg1 := by
  unfold iblk1
  exact read_blk1_2 t _

/-- Input window 3's block at any point is its whole entry array. -/
theorem iblk1_3_eq (c : Dev nD) (t : Fin cfg1.N) : iblk1 V c 3 t = V c main_arg2 := by
  unfold iblk1
  exact read_blk1_3 t _

/-- Every index of output window 4's array is in the block the one point writes back. -/
theorem cover_arr1_4 (i : S72x2048.Idx) :
    ∃ t : Fin cfg1.N, (cfg1.win 4).flush t = true ∧ i ∈ ((cfg1.win 4).blk t).view.set := by
  refine ⟨t1_0, flush1_4 t1_0, ?_⟩
  have hI := idx_facts1 t1_0
  show i ∈ ((View.whole main_v3_0).slice (win1_4.rect t1_0)).set
  rw [View.set_slice_whole, Rect.mem_set_unit]
  intro a
  have hi0 : (i 0).val < 72 := (i 0).isLt
  have hi1 : (i 1).val < 2048 := (i 1).isLt
  match a with
  | ⟨0, _⟩ => show win1_4.index t1_0 (0 : Fin 2) * 72 ≤ (i 0).val ∧ (i 0).val < win1_4.index t1_0 (0 : Fin 2) * 72 + 72; omega
  | ⟨1, _⟩ => show win1_4.index t1_0 (1 : Fin 2) * 2048 ≤ (i 1).val ∧ (i 1).val < win1_4.index t1_0 (1 : Fin 2) * 2048 + 2048; omega

/-- Every index of output window 5's array is in the block the one point writes back. -/
theorem cover_arr1_5 (i : S256x2048.Idx) :
    ∃ t : Fin cfg1.N, (cfg1.win 5).flush t = true ∧ i ∈ ((cfg1.win 5).blk t).view.set := by
  refine ⟨t1_0, flush1_5 t1_0, ?_⟩
  have hI := idx_facts1 t1_0
  show i ∈ ((View.whole main_v3_1).slice (win1_5.rect t1_0)).set
  rw [View.set_slice_whole, Rect.mem_set_unit]
  intro a
  have hi0 : (i 0).val < 256 := (i 0).isLt
  have hi1 : (i 1).val < 2048 := (i 1).isLt
  match a with
  | ⟨0, _⟩ => show win1_5.index t1_0 (0 : Fin 2) * 256 ≤ (i 0).val ∧ (i 0).val < win1_5.index t1_0 (0 : Fin 2) * 256 + 256; omega
  | ⟨1, _⟩ => show win1_5.index t1_0 (1 : Fin 2) * 2048 ≤ (i 1).val ∧ (i 1).val < win1_5.index t1_0 (1 : Fin 2) * 2048 + 2048; omega

/-- What the point writes back to output window 4's array is the block of the payload of the whole entry arrays. -/
theorem flushed1_4_eq (c : Dev nD) (t : Fin cfg1.N) :
    (dat1 V c).flushed 4 t = ((cfg1.win 4).blk t).view.read (Elt F) (k1_pay1 (V c main_v1) (V c main_v2) (V c main_arg1)) := by
  show (cfg1.win 4).cut (grid1.coords t) ((dat1 V c).after 4 t) = _
  rw [after1_4, out1_4_eq, iblk1_0_eq, iblk1_1_eq, iblk1_2_eq, read_blk1_4]
  rfl

theorem flushed1_5_eq (c : Dev nD) (t : Fin cfg1.N) :
    (dat1 V c).flushed 5 t = ((cfg1.win 5).blk t).view.read (Elt F) (k1_pay2 (V c main_v1) (V c main_v2) (V c main_arg1) (V c main_arg2)) := by
  show (cfg1.win 5).cut (grid1.coords t) ((dat1 V c).after 5 t) = _
  rw [after1_5, out1_5_eq, iblk1_0_eq, iblk1_1_eq, iblk1_2_eq, iblk1_3_eq, read_blk1_5]
  rfl

/-- THE ARRAY of output window 4 (`main_v3_0`) after the region: the first payload of the whole entry arrays. -/
theorem final1_4 (c : Dev nD) : (dat1 V c).arrAt 4 cfg1.N = k1_pay1 (V c main_v1) (V c main_v2) (V c main_arg1) :=
  (dat1 V c).arrAt_eq_of_cover 4 _ (fun t _ => flushed1_4_eq V c t) cover_arr1_4

/-- THE ARRAY of output window 5 (`main_v3_1`) after the region: the second payload of the whole entry arrays. -/
theorem final1_5 (c : Dev nD) : (dat1 V c).arrAt 5 cfg1.N = k1_pay2 (V c main_v1) (V c main_v2) (V c main_arg1) (V c main_arg2) :=
  (dat1 V c).arrAt_eq_of_cover 5 _ (fun t _ => flushed1_5_eq V c t) cover_arr1_5

end Regions

end Cert.KernelIdeal.Hand

end
-- ==== Proof.KernelIdeal.Run.lean ====
/-
  The whole program: the first kernel's region, the two reshapes of its results, the second kernel's region. The buffer
  contents at each boundary are a fold from the launch memory (a region's arrays at what its write-backs leave, a
  reshape at its result); every weakly fair execution terminates, nothing faulting, and every unscoped buffer ends at
  the last boundary's contents `W3` — from which both the frame (each argument read back through the fold to its
  launch contents) and the results' values are read.
-/
import proofs.«161578_j60215441489999_2_alg».proof.Proof.KernelIdeal.R0Frame
import proofs.«161578_j60215441489999_2_alg».proof.Proof.KernelIdeal.Region1
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first region: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two reshapes (the second region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the second region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := W1_of_ne m ρ c main_arg1 (by decide)
    _ = m ((c : Thread nD τ).loc main_arg1) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W3_main_arg1 (c : Dev nD) : W3 m ρ c (Proc.devRef .tc main_arg1) = m ((c : Thread nD τ).loc main_arg1) :=
  ((W3_arr m ρ c 2).trans (((dat1 (V2 m ρ) c).arrAt_in 2 rfl _).trans (A_eq1 (V2 m ρ) c 2))).trans (W2_main_arg1 m ρ c)
theorem W3_main_arg2 (c : Dev nD) : W3 m ρ c (Proc.devRef .tc main_arg2) = m ((c : Thread nD τ).loc main_arg2) :=
  ((W3_arr m ρ c 3).trans (((dat1 (V2 m ρ) c).arrAt_in 3 rfl _).trans (A_eq1 (V2 m ρ) c 3))).trans (W2_main_arg2 m ρ c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]
    unfold Pipeline.ΦA
    iintro ⟨Hp, -, Hr⟩
    isplitl [Hr]; · iexact Hr
    iexact Hp
  hout c := by
    rw [Pipeline.ownSems0_none]
    have h1 : Pipeline.ΦA spec0 c ⊢ (iprop((∃ r, prngReg c r) ∗ BI.emp ∗ Pipeline.scopedRest (Pipeline.pin (pcfgs (F := F)) adm 0).spec c) : sProp 𝕄) := by
      unfold Pipeline.ΦA
      iintro ⟨Hr, Hp⟩
      isplitl [Hp]; · iexact Hp
      isplitr; · iempintro
      iexact Hr
    exact (hout0 (V0 m ρ) c).trans h1
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting, and
    every final state holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run m ρ)

end Cert.KernelIdeal.Hand

end
-- ==== Proof.Value.R0Pieces.lean ====
/-
  What each case of the first kernel's body leaves, as the body's payloads: a whole-buffer store leaves its payload,
  a whole-buffer load reads the contents, and the accumulator read back after the store that zeroed it is zero.
-/
import proofs.«161578_j60215441489999_2_alg».proof.Proof.KernelIdeal.R0Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl

theorem out0_A_2_eq (c : Dev nD) (i : grid0.Coords) (arg2 : Memref sig .tc .vmem S1x1024x2048 .f32) (harg2 : arg2.IsWhole) (arg3 : Memref sig .tc .vmem S1x1x2048 .f32) (harg3 : arg3.IsWhole) (arg4 : Memref sig .tc .vmem S1x1x1024 .f32) (harg4 : arg4.IsWhole) (arg5 : Memref sig .tc .vmem S1x1x2048 .f32) (harg5 : arg5.IsWhole) (hc0 : cond0_0 i) (hc1 : ¬cond0_1 i) (x0 : Vec F S1x1024x2048 .f32) :
    out0_A_2 c i arg2 harg2 arg3 harg3 arg4 harg4 arg5 harg5 hc0 hc1 x0 = k0_pay2 x0 := by
  unfold out0_A_2
  rw [View.read_writes_eq_canon _ _ _ (cover0_A_2 c i arg2 harg2 arg3 harg3 arg4 harg4 arg5 harg5 hc0 hc1 x0)]
  unfold kernelRun0_A; dsimp only
  rw [View.canon_unit_zero hz3]
  simp only [View.readAt_eq_ld, harg2.read_unread, View.ld_unit_zero (S := S1x1024x2048) hz3]

theorem sout0_A_0_eq (c : Dev nD) (i : grid0.Coords) (arg2 : Memref sig .tc .vmem S1x1024x2048 .f32) (harg2 : arg2.IsWhole) (arg3 : Memref sig .tc .vmem S1x1x2048 .f32) (harg3 : arg3.IsWhole) (arg4 : Memref sig .tc .vmem S1x1x1024 .f32) (harg4 : arg4.IsWhole) (arg5 : Memref sig .tc .vmem S1x1x2048 .f32) (harg5 : arg5.IsWhole) (hc0 : cond0_0 i) (hc1 : ¬cond0_1 i) (x0 : Vec F S1x1024x2048 .f32) :
    sout0_A_0 c i arg2 harg2 arg3 harg3 arg4 harg4 arg5 harg5 hc0 hc1 x0 = k0_pay3 x0 k0_pay1 := by
  unfold sout0_A_0
  rw [View.read_writes_eq_canon _ _ _ (scover0_A_0 c i arg2 harg2 arg3 harg3 arg4 harg4 arg5 harg5 hc0 hc1 x0)]
  unfold kernelRun0_A; dsimp only
  sl_unfold_words
  rw [View.canon_cons_unit_zero hz3]
  simp only [View.readAt_eq_ld, harg2.read_unread, View.ld_unit_zero (S := S1x1024x2048) hz3]
  exact congrArg (k0_pay3 x0) (View.readCov_unit_zero (S := S1x1x2048) arg5.view hz3 _ _)

theorem out0_B_1_eq (c : Dev nD) (i : grid0.Coords) (arg2 : Memref sig .tc .vmem S1x1024x2048 .f32) (harg2 : arg2.IsWhole) (arg3 : Memref sig .tc .vmem S1x1x2048 .f32) (harg3 : arg3.IsWhole) (arg4 : Memref sig .tc .vmem S1x1x1024 .f32) (harg4 : arg4.IsWhole) (arg5 : Memref sig .tc .vmem S1x1x2048 .f32) (harg5 : arg5.IsWhole) (hc0 : ¬cond0_0 i) (hc1 : cond0_1 i) (x0 : Vec F S1x1024x2048 .f32) (xs0 : Vec F S1x1x2048 .f32) :
    out0_B_1 c i arg2 harg2 arg3 harg3 arg4 harg4 arg5 harg5 hc0 hc1 x0 xs0 = k0_pay3 x0 xs0 := by
  unfold out0_B_1
  rw [View.read_writes_eq_canon _ _ _ (cover0_B_1 c i arg2 harg2 arg3 harg3 arg4 harg4 arg5 harg5 hc0 hc1 x0 xs0)]
  unfold kernelRun0_B; dsimp only
  sl_unfold_words
  rw [View.canon_unit_zero hz3]
  simp only [View.readAt_eq_ld, harg2.read_unread, harg5.read_unread, View.ld_unit_zero (S := S1x1024x2048) hz3, View.ld_unit_zero (S := S1x1x2048) hz3]
  exact View.readCov_unit_zero (S := S1x1x2048) arg5.view hz3 _ _

theorem out0_B_2_eq (c : Dev nD) (i : grid0.Coords) (arg2 : Memref sig .tc .vmem S1x1024x2048 .f32) (harg2 : arg2.IsWhole) (arg3 : Memref sig .tc .vmem S1x1x2048 .f32) (harg3 : arg3.IsWhole) (arg4 : Memref sig .tc .vmem S1x1x1024 .f32) (harg4 : arg4.IsWhole) (arg5 : Memref sig .tc .vmem S1x1x2048 .f32) (harg5 : arg5.IsWhole) (hc0 : ¬cond0_0 i) (hc1 : cond0_1 i) (x0 : Vec F S1x1024x2048 .f32) (xs0 : Vec F S1x1x2048 .f32) :
    out0_B_2 c i arg2 harg2 arg3 harg3 arg4 harg4 arg5 harg5 hc0 hc1 x0 xs0 = k0_pay2 x0 := by
  unfold out0_B_2
  rw [View.read_writes_eq_canon _ _ _ (cover0_B_2 c i arg2 harg2 arg3 harg3 arg4 harg4 arg5 harg5 hc0 hc1 x0 xs0)]
  unfold kernelRun0_B; dsimp only
  sl_unfold_words
  rw [View.canon_unit_zero hz3]
  simp only [View.readAt_eq_ld, harg2.read_unread, View.ld_unit_zero (S := S1x1024x2048) hz3]

theorem sout0_B_0_eq (c : Dev nD) (i : grid0.Coords) (arg2 : Memref sig .tc .vmem S1x1024x2048 .f32) (harg2 : arg2.IsWhole) (arg3 : Memref sig .tc .vmem S1x1x2048 .f32) (harg3 : arg3.IsWhole) (arg4 : Memref sig .tc .vmem S1x1x1024 .f32) (harg4 : arg4.IsWhole) (arg5 : Memref sig .tc .vmem S1x1x2048 .f32) (harg5 : arg5.IsWhole) (hc0 : ¬cond0_0 i) (hc1 : cond0_1 i) (x0 : Vec F S1x1024x2048 .f32) (xs0 : Vec F S1x1x2048 .f32) :
    sout0_B_0 c i arg2 harg2 arg3 harg3 arg4 harg4 arg5 harg5 hc0 hc1 x0 xs0 = k0_pay3 x0 xs0 := by
  unfold sout0_B_0
  rw [View.read_writes_eq_canon _ _ _ (scover0_B_0 c i arg2 harg2 arg3 harg3 arg4 harg4 arg5 harg5 hc0 hc1 x0 xs0)]
  unfold kernelRun0_B; dsimp only
  sl_unfold_words
  rw [View.canon_unit_zero hz3]
  simp only [View.readAt_eq_ld, harg2.read_unread, harg5.read_unread, View.ld_unit_zero (S := S1x1024x2048) hz3, View.ld_unit_zero (S := S1x1x2048) hz3]

end Cert.KernelIdeal.Hand

end
-- ==== Proof.Value.R0Outs.lean ====
/-
  Point by point in closed form: after an even point the accumulator holds that chunk's column sums added to zero and
  the second output's buffer the chunk's row sums; after an odd point the first output's buffer holds the odd chunk's
  column sums added to what the even point before it left, and the second output's buffer the odd chunk's row sums.
-/
import proofs.«161578_j60215441489999_2_alg».proof.Proof.Value.R0Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

theorem outs_even (c : Dev nD) (t : Fin cfg0.N) (h0 : t.val % 2 = 0) :
    (outsAt0 V c t.val t.isLt).2.1 = k0_pay2 (iblk0 V c 0 t)
    ∧ (outsAt0 V c t.val t.isLt).2.2 = k0_pay3 (iblk0 V c 0 t) k0_pay1 := by
  rw [outsAt0_A V c t h0]
  dsimp only
  exact ⟨out0_A_2_eq c (grid0.coords t) (ms0_0 t) (hs0_0 t) (ms0_1 t) (hs0_1 t) (ms0_2 t) (hs0_2 t) scM0_0 (Memref.isWhole_whole _) ((hcond0_0 t).mpr h0) (hcA t h0) (iblk0 V c 0 t),
    sout0_A_0_eq c (grid0.coords t) (ms0_0 t) (hs0_0 t) (ms0_1 t) (hs0_1 t) (ms0_2 t) (hs0_2 t) scM0_0 (Memref.isWhole_whole _) ((hcond0_0 t).mpr h0) (hcA t h0) (iblk0 V c 0 t)⟩

theorem outs_odd (c : Dev nD) (t : Fin cfg0.N) (h0 : ¬t.val % 2 = 0) :
    (outsAt0 V c t.val t.isLt).1 = k0_pay3 (iblk0 V c 0 t) (k0_pay3 (iblk0 V c 0 ⟨t.val - 1, (Nat.lt_of_le_of_lt (Nat.sub_le _ _) t.isLt)⟩) k0_pay1)
    ∧ (outsAt0 V c t.val t.isLt).2.1 = k0_pay2 (iblk0 V c 0 t) := by
  have hprev : (outsAt0 V c (t.val - 1) (Nat.lt_of_le_of_lt (Nat.sub_le _ _) t.isLt)).2.2 = k0_pay3 (iblk0 V c 0 ⟨t.val - 1, (Nat.lt_of_le_of_lt (Nat.sub_le _ _) t.isLt)⟩) k0_pay1 :=
    (outs_even V c ⟨t.val - 1, (Nat.lt_of_le_of_lt (Nat.sub_le _ _) t.isLt)⟩ (by show (t.val - 1) % 2 = 0; omega)).2
  rw [outsAt0_B V c t h0]
  dsimp only
  rw [hprev]
  exact ⟨out0_B_1_eq c (grid0.coords t) (ms0_0 t) (hs0_0 t) (ms0_1 t) (hs0_1 t) (ms0_2 t) (hs0_2 t) scM0_0 (Memref.isWhole_whole _) (fun h => h0 ((hcond0_0 t).mp h)) (hcB t h0) (iblk0 V c 0 t) _,
    out0_B_2_eq c (grid0.coords t) (ms0_0 t) (hs0_0 t) (ms0_1 t) (hs0_1 t) (ms0_2 t) (hs0_2 t) scM0_0 (Memref.isWhole_whole _) (fun h => h0 ((hcond0_0 t).mp h)) (hcB t h0) (iblk0 V c 0 t) _⟩

/-- The second output's buffer after ANY point: the chunk's row sums. -/
theorem outs_2 (c : Dev nD) (t : Fin cfg0.N) : (outsAt0 V c t.val t.isLt).2.1 = k0_pay2 (iblk0 V c 0 t) := by
  by_cases h0 : t.val % 2 = 0
  · exact (outs_even V c t h0).1
  · exact (outs_odd V c t h0).2
end

end Cert.KernelIdeal.Hand

end
-- ==== Proof.Value.Region0Math.lean ====
/- The three payloads of the first kernel (`cc0__reduce_kernel`) read at an index, at the ideal float values: the
   accumulator's reset value is the real 0, the row sums are sums over the lane axis, and the accumulated column sums
   are the old accumulator plus a sum over the row axis. Stated over variables of the literal vector types. -/
import proofs.«161578_j60215441489999_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Hand

open Cert.KernelIdeal Cert.KernelIdeal.Gen
open Idealize.ShloMosaic Idealize.ShloMosaic.ValueIdx Idealize.SL.Sem

/-! ## Payload 1: the accumulator's reset value -/

/-- The zero splat stored into the accumulator reads the real 0 at every index: the same-shape cast is the identity,
    a broadcast reads its scalar, and the word 0x00000000 is the f32 zero. -/
theorem k0_pay1_apply (j : S1x1x2048.Idx) : k0_pay1 (F := Ideal) j = (0 : EReal) := by
  unfold k0_pay1
  show shapeCast S1x1x2048 (broadcast S1x1x2048 (Scalar.ofBits (F := Ideal) .f32 0x00000000#32)) shapeCasts_S1x1x2048_S1x1x2048 j = 0
  rw [shapeCast_self]
  exact Ideal.ofBits_zero_f32

/-! ## Payload 2: the row sums -/

/-- At the index with coordinates `(u, v, i)`: the sum over the lane axis of row `i` of the block. -/
theorem k0_pay2_ix (x : Vec Ideal S1x1024x2048 .f32) (u v : Fin 1) (i : Fin 1024) :
    k0_pay2 (F := Ideal) x (ix3 u v i) = ∑ n : Fin 2048, x (ix3 (0 : Fin 1) i n) := by
  unfold k0_pay2
  show shapeCast S1x1x1024 (multiReduction (F := Ideal) .add [2] S1x1024 x 0x00000000#32 reduces_S1x1024x2048_S1x1024 (.inl rfl) rfl)
      shapeCasts_S1x1024_S1x1x1024 (ix3 u v i) = _
  rw [shapeCast_ab_1ab_apply]
  refine (Ideal.multiReduction_add_single x _ _ _ _ _).trans ?_
  refine Finset.sum_congr rfl fun n _ => congrArg x ?_
  funext a
  match a with
  | ⟨0, _⟩ => exact Fin.ext (by show v.val = 0; omega)
  | ⟨1, _⟩ => rfl
  | ⟨2, _⟩ => rfl

/-- At any index `j` of the [1, 1, 1024] result: the sum over the lane axis of row `j 2`. The right-hand index is
    `ValueIdx.ix3 (0 : Fin 1) (j 2) n`, of coordinates `(0, j 2, n)` in the [1, 1024, 2048] block. -/
theorem k0_pay2_apply (x : Vec Ideal S1x1024x2048 .f32) (j : S1x1x1024.Idx) :
    k0_pay2 (F := Ideal) x j = ∑ n : Fin 2048, x (ix3 (0 : Fin 1) (j 2) n) := by
  obtain ⟨u, v, i, rfl⟩ : ∃ (u v : Fin 1) (i : Fin 1024), j = ix3 u v i := ⟨_, _, _, eq_ix3 j⟩
  exact k0_pay2_ix x u v i

/-! ## Payload 3: the accumulated column sums -/

/-- At the index with coordinates `(u, v, l)`: the accumulator there plus the sum over the row axis of lane `l`. -/
theorem k0_pay3_ix (x : Vec Ideal S1x1024x2048 .f32) (acc : Vec Ideal S1x1x2048 .f32) (u v : Fin 1) (l : Fin 2048) :
    k0_pay3 (F := Ideal) x acc (ix3 u v l) = acc (ix3 u v l) + ∑ k : Fin 1024, x (ix3 (0 : Fin 1) k l) := by
  unfold k0_pay3
  show shapeCast S1x1x2048 (addf (F := Ideal) acc (shapeCast S1x1x2048
        (multiReduction (F := Ideal) .add [1] S1x2048 x 0x00000000#32 reduces_S1x1024x2048_S1x2048 (.inl rfl) rfl) shapeCasts_S1x2048_S1x1x2048))
      shapeCasts_S1x1x2048_S1x1x2048 (ix3 u v l) = _
  rw [shapeCast_self, addf_apply, shapeCast_ab_1ab_apply]
  refine congrArg (acc (ix3 u v l) + ·) ?_
  refine (Ideal.multiReduction_add_single x _ _ _ _ _).trans ?_
  refine Finset.sum_congr rfl fun k _ => congrArg x ?_
  funext a
  match a with
  | ⟨0, _⟩ => exact Fin.ext (by show v.val = 0; omega)
  | ⟨1, _⟩ => rfl
  | ⟨2, _⟩ => rfl

/-- At any index `j` of the [1, 1, 2048] result: the accumulator at `j` plus the sum over the row axis of lane `j 2`.
    The right-hand index is `ValueIdx.ix3 (0 : Fin 1) k (j 2)`, of coordinates `(0, k, j 2)` in the [1, 1024, 2048] block. -/
theorem k0_pay3_apply (x : Vec Ideal S1x1024x2048 .f32) (acc : Vec Ideal S1x1x2048 .f32) (j : S1x1x2048.Idx) :
    k0_pay3 (F := Ideal) x acc j = acc j + ∑ k : Fin 1024, x (ix3 (0 : Fin 1) k (j 2)) := by
  obtain ⟨u, v, l, rfl⟩ : ∃ (u v : Fin 1) (l : Fin 2048), j = ix3 u v l := ⟨_, _, _, eq_ix3 j⟩
  exact k0_pay3_ix x acc u v l

end Cert.KernelIdeal.Hand

end
-- ==== Proof.Value.Sums.lean ====
/-
  The first kernel's two sums against the reference's two reductions of the database db [32, 2048, 2048], at the
  ideal values. The sum over axis 1 is taken in two halves of 1024 rows, each half from zero and the halves added
  from zero; the reference sums all 2048 rows from zero: a finite sum over Fin 2048 splits at 1024, and 0 + x = x.
  The sum over axis 2 is one sum of 2048 terms on both sides. Between the two kernels the [32, 1, 2048] results are
  reshaped to [32, 2048]: the unit axis dropped, the row-major position unchanged.
-/
import proofs.«161578_j60215441489999_2_alg».proof.Proof.Gen.KernelIdeal
import proofs.«161578_j60215441489999_2_alg».proof.Proof.Gen.ReferenceIdeal.Read
import Idealize.ShloMosaic.Lib.IdealHost
import Idealize.ShloMosaic.Lib.ValueLayout

noncomputable section

namespace Cert.Sums

open Idealize.ShloMosaic Idealize.SL.Sem Idealize.ShloMosaic.ValueIdx
open scoped BigOperators

/-! ## A sum over 2048 terms in two halves -/

/-- A sum over Fin 2048 is the sum of its first 1024 terms plus the sum of its last 1024. -/
theorem sum_halves (f : Fin 2048 → EReal) :
    (∑ k : Fin 1024, f (⟨k.val, by omega⟩ : Fin 2048)) + (∑ k : Fin 1024, f (⟨1024 + k.val, by omega⟩ : Fin 2048))
      = ∑ k : Fin 2048, f k :=
  (Fin.sum_univ_add (a := 1024) (b := 1024) f).symm

/-! ## The sum over axis 1 -/

/-- The two half sums over axis 1, each from zero and added from zero, are the reference's sum over axis 1. -/
theorem sum1_math (db : (⟨Cert.ReferenceIdeal.S32x2048x2048, .f32⟩ : BufTy).Contents (Elt Ideal)) (r : Fin 32) (n : Fin 2048) :
    (((0 : EReal) + (0 + ∑ k : Fin 1024, (db (ix3 r (⟨k.val, by omega⟩ : Fin 2048) n) : EReal)))
        + (0 + ∑ k : Fin 1024, (db (ix3 r (⟨1024 + k.val, by omega⟩ : Fin 2048) n) : EReal)))
      = Cert.ReferenceIdeal.Read.val_main_v0 (F := Ideal) db (ix2 r n) := by
  rw [Cert.ReferenceIdeal.Read.val_main_v0_apply, Cert.ReferenceIdeal.Read.val_main_cst_apply]
  show _ = Ideal.ofBits .f32 0x00000000#32 + _
  rw [Ideal.ofBits_zero_f32, zero_add, zero_add, zero_add, zero_add]
  refine (sum_halves fun k => (db (ix3 r k n) : EReal)).trans (Finset.sum_congr rfl fun k _ => congrArg db ?_)
  funext a
  match a with
  | ⟨0, _⟩ => rfl
  | ⟨1, _⟩ => rfl
  | ⟨2, _⟩ => rfl

/-! ## The sum over axis 2 -/

/-- The sum over axis 2 from zero is the reference's sum over axis 2. -/
theorem sum2_math (db : (⟨Cert.ReferenceIdeal.S32x2048x2048, .f32⟩ : BufTy).Contents (Elt Ideal)) (r : Fin 32) (i : Fin 2048) :
    ((0 : EReal) + ∑ n : Fin 2048, (db (ix3 r i n) : EReal))
      = Cert.ReferenceIdeal.Read.val_main_v1 (F := Ideal) db (ix2 r i) := by
  rw [Cert.ReferenceIdeal.Read.val_main_v1_apply, Cert.ReferenceIdeal.Read.val_main_cst_0_apply]
  show _ = Ideal.ofBits .f32 0x00000000#32 + _
  rw [Ideal.ofBits_zero_f32]
  refine congrArg ((0 : EReal) + ·) (Finset.sum_congr rfl fun k _ => congrArg db ?_)
  funext a
  match a with
  | ⟨0, _⟩ => rfl
  | ⟨1, _⟩ => rfl
  | ⟨2, _⟩ => rfl

/-! ## The reshape between the kernels -/

/-- A [32, 1, 2048] array reshaped to [32, 2048] reads, at (r, n), the operand at (r, 0, n). -/
theorem reshape_read {α : Type} (X : Cert.KernelIdeal.S32x1x2048.Idx → α)
    (h : Cert.KernelIdeal.S32x1x2048.ShapeCasts Cert.KernelIdeal.S32x2048) (r : Fin 32) (n : Fin 2048) :
    shapeCast Cert.KernelIdeal.S32x2048 X h (ix2 r n) = X (ix3 r (0 : Fin 1) n) :=
  shapeCast_apply X h _ _ (by
    rw [Shape.rowMajor_val_three, Shape.rowMajor_val_two]
    show (r.val * 1 + 0) * 2048 + n.val = r.val * 2048 + n.val
    omega)

/-- So the reshaped array is the function Y whenever the operand at (r, 0, n) is Y at (r, n). -/
theorem reshape_ext {α : Type} (X : Cert.KernelIdeal.S32x1x2048.Idx → α)
    (h : Cert.KernelIdeal.S32x1x2048.ShapeCasts Cert.KernelIdeal.S32x2048) (Y : Cert.KernelIdeal.S32x2048.Idx → α)
    (hX : ∀ (r : Fin 32) (n : Fin 2048), X (ix3 r (0 : Fin 1) n) = Y (ix2 r n)) :
    shapeCast Cert.KernelIdeal.S32x2048 X h = Y := by
  funext j
  obtain ⟨r, n, rfl⟩ : ∃ (r : Fin 32) (n : Fin 2048), j = ix2 r n := ⟨j 0, j 1, eq_ix2 j⟩
  exact (reshape_read X h r n).trans (hX r n)

/-- The reshaped first result is the reference's sum over axis 1, given that fact at every (r, 0, n). -/
theorem reshape_sum1 (db : (⟨Cert.ReferenceIdeal.S32x2048x2048, .f32⟩ : BufTy).Contents (Elt Ideal))
    (X : Cert.KernelIdeal.S32x1x2048.Idx → EReal) (h : Cert.KernelIdeal.S32x1x2048.ShapeCasts Cert.KernelIdeal.S32x2048)
    (hX : ∀ (r : Fin 32) (n : Fin 2048), X (ix3 r (0 : Fin 1) n) = Cert.ReferenceIdeal.Read.val_main_v0 (F := Ideal) db (ix2 r n)) :
    shapeCast Cert.KernelIdeal.S32x2048 X h = Cert.ReferenceIdeal.Read.val_main_v0 (F := Ideal) db :=
  reshape_ext X h _ hX

/-- The reshaped second result is the reference's sum over axis 2, likewise. -/
theorem reshape_sum2 (db : (⟨Cert.ReferenceIdeal.S32x2048x2048, .f32⟩ : BufTy).Contents (Elt Ideal))
    (X : Cert.KernelIdeal.S32x1x2048.Idx → EReal) (h : Cert.KernelIdeal.S32x1x2048.ShapeCasts Cert.KernelIdeal.S32x2048)
    (hX : ∀ (r : Fin 32) (n : Fin 2048), X (ix3 r (0 : Fin 1) n) = Cert.ReferenceIdeal.Read.val_main_v1 (F := Ideal) db (ix2 r n)) :
    shapeCast Cert.KernelIdeal.S32x2048 X h = Cert.ReferenceIdeal.Read.val_main_v1 (F := Ideal) db :=
  reshape_ext X h _ hX

end Cert.Sums

end
-- ==== Proof.Value.R0Blocks.lean ====
/-
  One block of the database against the reference's two sums, over a block `x` known to sit at relation `r`, rows
  `q·1024 …`: the chunk's row sums are the reference's sum over the last axis at those rows; and the two chunks'
  column sums, the second added to the first added to zero, are the reference's sum over the middle axis (a sum over
  2048 rows split at 1024; only the monoid laws of the extended reals are used).
-/
import proofs.«161578_j60215441489999_2_alg».proof.Proof.Value.Region0Math
import proofs.«161578_j60215441489999_2_alg».proof.Proof.Value.Sums

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

abbrev DB := (⟨Cert.ReferenceIdeal.S32x2048x2048, .f32⟩ : BufTy).Contents (Elt Ideal)

/-- The row sums of the block of relation `r` that starts at row `q · 1024`. -/
theorem pay2_blk (db : DB) (x : Vec Ideal S1x1024x2048 .f32) (r : Fin 32) (q : Fin 2)
    (hx : ∀ (k : Fin 1024) (n : Fin 2048), x (ix3 (0 : Fin 1) k n) = db (ix3 r (⟨q.val * 1024 + k.val, by omega⟩ : Fin 2048) n))
    (u v : Fin 1) (i : Fin 1024) :
    k0_pay2 (F := Ideal) x (ix3 u v i) = Cert.ReferenceIdeal.Read.val_main_v1 (F := Ideal) db (ix2 r (⟨q.val * 1024 + i.val, by omega⟩ : Fin 2048)) := by
  rw [k0_pay2_ix, ← Cert.Sums.sum2_math, zero_add]
  exact Finset.sum_congr rfl fun n _ => hx i n

/-- The column sums of the two blocks of relation `r`, accumulated from zero. -/
theorem pay3_blk (db : DB) (x x' : Vec Ideal S1x1024x2048 .f32) (r : Fin 32)
    (hx' : ∀ (k : Fin 1024) (n : Fin 2048), x' (ix3 (0 : Fin 1) k n) = db (ix3 r (⟨k.val, by omega⟩ : Fin 2048) n))
    (hx : ∀ (k : Fin 1024) (n : Fin 2048), x (ix3 (0 : Fin 1) k n) = db (ix3 r (⟨1024 + k.val, by omega⟩ : Fin 2048) n))
    (u v : Fin 1) (l : Fin 2048) :
    k0_pay3 (F := Ideal) x (k0_pay3 (F := Ideal) x' (k0_pay1 (F := Ideal))) (ix3 u v l) = Cert.ReferenceIdeal.Read.val_main_v0 (F := Ideal) db (ix2 r l) := by
  rw [k0_pay3_ix, k0_pay3_ix, k0_pay1_apply, ← Cert.Sums.sum1_math]
  simp only [zero_add]
  congr 1
  · exact Finset.sum_congr rfl fun k _ => hx' k l
  · exact Finset.sum_congr rfl fun k _ => hx k l

end Cert.KernelIdeal.Hand

end
-- ==== Proof.Value.R0Cover.lean ====
/- The first pipeline's index arithmetic (`cfg0`: a 32 × 2 grid, point `t` = 2 · row + chunk): each window's block
   index at a point in closed form, where an element of each block sits in its array, and that the write-backs of each
   output window cover its array. -/
import proofs.«161578_j60215441489999_2_alg».proof.Proof.Gen.KernelIdeal.Launch
import proofs.«161578_j60215441489999_2_alg».proof.Proof.Gen.KernelIdeal.Points
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

/-! ## The block indices, decided over the 64 points -/

/-- A point of the grid is below 64. -/
theorem t0_lt (t : Fin cfg0.N) : t.val < 64 := by
  have h : t.val < grid0.N := t.isLt
  rw [N_0] at h; exact h

/-- The printed index maps in closed form: window 0 (the operand) is at block (row, chunk, 0), window 1 (the column
    sums) at (row, 0, 0), window 2 (the row sums) at (row, 0, chunk), where row = t / 2 and chunk = t % 2. -/
theorem idx_facts0 : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = 0 ∧ win0_2.index t (2 : Fin 3) = t.val % 2 :=
  (by decide +kernel : ∀ t : Fin grid0.N, _)

/-! ## Where an element of a block sits in its array -/

/-- Element (0, k, n) of window 0's block at point `t` is element (t / 2, (t % 2) · 1024 + k, n) of the operand. -/
theorem emb_blk0_0 (t : Fin cfg0.N) (k : Fin 1024) (n : Fin 2048) :
    ((cfg0.win 0).blk t).view.emb (ix3 (0 : Fin 1) k n)
      = ix3 (⟨t.val / 2, by have := t0_lt t; omega⟩ : Fin 32) (⟨(t.val % 2) * 1024 + k.val, by have := k.isLt; omega⟩ : Fin 2048) n := by
  obtain ⟨e0, e1, e2, -, -, -, -, -, -⟩ := idx_facts0 t
  funext a; apply Fin.ext
  match a with
  | ⟨0, _⟩ => show win0_0.index t (0 : Fin 3) * 1 + 1 * 0 = t.val / 2; omega
  | ⟨1, _⟩ => show win0_0.index t (1 : Fin 3) * 1024 + 1 * k.val = (t.val % 2) * 1024 + k.val; omega
  | ⟨2, _⟩ => show win0_0.index t (2 : Fin 3) * 2048 + 1 * n.val = n.val; omega

/-- Element `j` of window 1's [1, 1, 2048] block at point `t` is element (t / 2, 0, j 2) of its array. -/
theorem emb_blk0_1 (t : Fin cfg0.N) (j : S1x1x2048.Idx) :
    ((cfg0.win 1).blk t).view.emb j = ix3 (⟨t.val / 2, by have := t0_lt t; omega⟩ : Fin 32) (0 : Fin 1) (j 2) := by
  obtain ⟨-, -, -, e0, e1, e2, -, -, -⟩ := idx_facts0 t
  have hj0 : (j 0).val < 1 := (j 0).isLt
  have hj1 : (j 1).val < 1 := (j 1).isLt
  funext a; apply Fin.ext
  match a with
  | ⟨0, _⟩ => show win0_1.index t (0 : Fin 3) * 1 + 1 * (j 0).val = t.val / 2; omega
  | ⟨1, _⟩ => show win0_1.index t (1 : Fin 3) * 1 + 1 * (j 1).val = 0; omega
  | ⟨2, _⟩ => show win0_1.index t (2 : Fin 3) * 2048 + 1 * (j 2).val = (j 2).val; omega

/-- Element `j` of window 2's [1, 1, 1024] block at point `t` is element (t / 2, 0, (t % 2) · 1024 + j 2) of its array. -/
theorem emb_blk0_2 (t : Fin cfg0.N) (j : S1x1x1024.Idx) :
    ((cfg0.win 2).blk t).view.emb j
      = ix3 (⟨t.val / 2, by have := t0_lt t; omega⟩ : Fin 32) (0 : Fin 1)
          (⟨(t.val % 2) * 1024 + (j 2).val, by have h2 : (j 2).val < 1024 := (j 2).isLt; omega⟩ : Fin 2048) := by
  obtain ⟨-, -, -, -, -, -, e0, e1, e2⟩ := idx_facts0 t
  have hj0 : (j 0).val < 1 := (j 0).isLt
  have hj1 : (j 1).val < 1 := (j 1).isLt
  funext a; apply Fin.ext
  match a with
  | ⟨0, _⟩ => show win0_2.index t (0 : Fin 3) * 1 + 1 * (j 0).val = t.val / 2; omega
  | ⟨1, _⟩ => show win0_2.index t (1 : Fin 3) * 1 + 1 * (j 1).val = 0; omega
  | ⟨2, _⟩ => show win0_2.index t (2 : Fin 3) * 1024 + 1 * (j 2).val = (t.val % 2) * 1024 + (j 2).val; omega

/-! ## The output windows' blocks cover their arrays -/

/-- An index of window 1's array is in point `t`'s block iff each coordinate is in the block's range on its axis. -/
theorem mem_blk0_1 (t : Fin cfg0.N) (i : S32x1x2048.Idx) :
    i ∈ ((cfg0.win 1).blk t).view.set ↔ ∀ a : Fin 3, win0_1.index t a * S1x1x2048.size a ≤ (i a).val ∧ (i a).val < win0_1.index t a * S1x1x2048.size a + S1x1x2048.size a := by
  show i ∈ ((View.whole main_v0_0).slice (win0_1.rect t)).set ↔ _
  rw [View.set_slice_whole, Rect.mem_set_unit]
  exact Iff.rfl

/-- An index of window 2's array is in point `t`'s block iff each coordinate is in the block's range on its axis. -/
theorem mem_blk0_2 (t : Fin cfg0.N) (i : S32x1x2048.Idx) :
    i ∈ ((cfg0.win 2).blk t).view.set ↔ ∀ a : Fin 3, win0_2.index t a * S1x1x1024.size a ≤ (i a).val ∧ (i a).val < win0_2.index t a * S1x1x1024.size a + S1x1x1024.size a := by
  show i ∈ ((View.whole main_v0_1).slice (win0_2.rect t)).set ↔ _
  rw [View.set_slice_whole, Rect.mem_set_unit]
  exact Iff.rfl

/-- Every index of window 1's array is in the block a flushing point writes back: row `i 0`'s last chunk, point 2 · (i 0) + 1. -/
theorem cover0_1arr (i : S32x1x2048.Idx) :
    ∃ t : Fin cfg0.N, (cfg0.win 1).flush t = true ∧ i ∈ ((cfg0.win 1).blk t).view.set := by
  have hi0 : (i 0).val < 32 := (i 0).isLt
  have hi1 : (i 1).val < 1 := (i 1).isLt
  have hi2 : (i 2).val < 2048 := (i 2).isLt
  obtain ⟨t, ht⟩ : ∃ t : Fin cfg0.N, t.val = 2 * (i 0).val + 1 :=
    ⟨⟨2 * (i 0).val + 1, by show _ < grid0.N; rw [N_0]; omega⟩, rfl⟩
  obtain ⟨-, -, -, e0, e1, e2, -, -, -⟩ := idx_facts0 t
  refine ⟨t, (flush0_1 t).mpr (by omega), ?_⟩
  rw [mem_blk0_1]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 1 ≤ (i 1).val ∧ (i 1).val < win0_1.index t (1 : Fin 3) * 1 + 1; omega
  | ⟨2, _⟩ => show win0_1.index t (2 : Fin 3) * 2048 ≤ (i 2).val ∧ (i 2).val < win0_1.index t (2 : Fin 3) * 2048 + 2048; omega

/-- Every index of window 2's array is in the block a flushing point writes back: point 2 · (i 0) + (i 2) / 1024. -/
theorem cover0_2arr (i : S32x1x2048.Idx) :
    ∃ t : Fin cfg0.N, (cfg0.win 2).flush t = true ∧ i ∈ ((cfg0.win 2).blk t).view.set := by
  have hi0 : (i 0).val < 32 := (i 0).isLt
  have hi1 : (i 1).val < 1 := (i 1).isLt
  have hi2 : (i 2).val < 2048 := (i 2).isLt
  obtain ⟨t, ht⟩ : ∃ t : Fin cfg0.N, t.val = 2 * (i 0).val + (i 2).val / 1024 :=
    ⟨⟨2 * (i 0).val + (i 2).val / 1024, by show _ < grid0.N; rw [N_0]; omega⟩, rfl⟩
  obtain ⟨-, -, -, -, -, -, e0, e1, e2⟩ := idx_facts0 t
  refine ⟨t, flush0_2 t, ?_⟩
  rw [mem_blk0_2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 1024 ≤ (i 2).val ∧ (i 2).val < win0_2.index t (2 : Fin 3) * 1024 + 1024; omega

end Cert.KernelIdeal.Hand

end
-- ==== Proof.Value.R0Final.lean ====
/-
  What the first region leaves in its two result arrays, as functions of the database `db` (the region's first
  array as entered): every element of the second result is the reference's sum over the last axis, written by the
  point whose chunk holds its row; every element of the first result is the reference's sum over the middle axis,
  written by the odd point of its relation from the accumulator that the even point started from zero.
-/
import proofs.«161578_j60215441489999_2_alg».proof.Proof.Value.R0Outs
import proofs.«161578_j60215441489999_2_alg».proof.Proof.Value.R0Blocks
import proofs.«161578_j60215441489999_2_alg».proof.Proof.Value.R0Cover

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section
variable (V : (c : Dev nD) → (b : Ref sig .tc) → Buf (Elt Ideal) ((c : Thread nD τ).loc b))

/-- The first result array: at `(r, 0, n)` the sum of `db r · n` over the middle axis. -/
def G1 (db : DB) : S32x1x2048.Idx → EReal := fun j =>
  Cert.ReferenceIdeal.Read.val_main_v0 (F := Ideal) db (ix2 (⟨(j 0).val, (j 0).isLt⟩ : Fin 32) (⟨(j 2).val, (j 2).isLt⟩ : Fin 2048))
/-- The second result array: at `(r, 0, i)` the sum of `db r i ·` over the last axis. -/
def G2 (db : DB) : S32x1x2048.Idx → EReal := fun j =>
  Cert.ReferenceIdeal.Read.val_main_v1 (F := Ideal) db (ix2 (⟨(j 0).val, (j 0).isLt⟩ : Fin 32) (⟨(j 2).val, (j 2).isLt⟩ : Fin 2048))

theorem G1_ix (db : DB) (r : Fin 32) (u : Fin 1) (n : Fin 2048) : G1 db (ix3 r u n) = Cert.ReferenceIdeal.Read.val_main_v0 (F := Ideal) db (ix2 r n) := rfl
theorem G2_ix (db : DB) (r : Fin 32) (u : Fin 1) (n : Fin 2048) : G2 db (ix3 r u n) = Cert.ReferenceIdeal.Read.val_main_v1 (F := Ideal) db (ix2 r n) := rfl

/-- What any point writes back of the second result is its block of `G2`. -/
theorem flushed0_2_eq (c : Dev nD) (t : Fin cfg0.N) :
    (dat0 V c).flushed 2 t = ((cfg0.win 2).blk t).view.read (Elt Ideal) (G2 (V c main_arg0)) := by
  show (cfg0.win 2).cut (grid0.coords t) ((dat0 V c).after 2 t) = _
  rw [after0_2, outs_2 V c t]
  funext j
  obtain ⟨u, v, i, rfl⟩ : ∃ (u v : Fin 1) (i : Fin 1024), j = ix3 u v i := ⟨j 0, j 1, j 2, eq_ix3 j⟩
  show k0_pay2 (iblk0 V c 0 t) (ix3 u v i) = G2 (V c main_arg0) (((cfg0.win 2).blk t).view.emb (ix3 u v i))
  rw [emb_blk0_2 t (ix3 u v i), G2_ix]
  refine pay2_blk (V c main_arg0) (iblk0 V c 0 t) ⟨t.val / 2, by have := t0_lt t; omega⟩ ⟨t.val % 2, by omega⟩ (fun k n => ?_) u v i
  show V c main_arg0 (((cfg0.win 0).blk t).view.emb (ix3 (0 : Fin 1) k n)) = _
  rw [emb_blk0_0 t k n]

/-- What an odd point writes back of the first result is its block of `G1`. -/
theorem flushed0_1_eq (c : Dev nD) (t : Fin cfg0.N) (hf : (cfg0.win 1).flush t = true) :
    (dat0 V c).flushed 1 t = ((cfg0.win 1).blk t).view.read (Elt Ideal) (G1 (V c main_arg0)) := by
  have h1 : t.val % 2 = 1 := (flush0_1 t).mp hf
  have h0 : ¬t.val % 2 = 0 := by omega
  show (cfg0.win 1).cut (grid0.coords t) ((dat0 V c).after 1 t) = _
  rw [after0_1, (outs_odd V c t h0).1]
  funext j
  obtain ⟨u, v, l, rfl⟩ : ∃ (u v : Fin 1) (l : Fin 2048), j = ix3 u v l := ⟨j 0, j 1, j 2, eq_ix3 j⟩
  show k0_pay3 (iblk0 V c 0 t) (k0_pay3 (iblk0 V c 0 ⟨t.val - 1, Nat.lt_of_le_of_lt (Nat.sub_le _ _) t.isLt⟩) (k0_pay1 (F := Ideal))) (ix3 u v l)
    = G1 (V c main_arg0) (((cfg0.win 1).blk t).view.emb (ix3 u v l))
  rw [emb_blk0_1 t (ix3 u v l)]
  have ht := t0_lt t
  show k0_pay3 (iblk0 V c 0 t) (k0_pay3 (iblk0 V c 0 ⟨t.val - 1, Nat.lt_of_le_of_lt (Nat.sub_le _ _) t.isLt⟩) (k0_pay1 (F := Ideal))) (ix3 u v l)
    = Cert.ReferenceIdeal.Read.val_main_v0 (F := Ideal) (V c main_arg0) (ix2 (⟨t.val / 2, by omega⟩ : Fin 32) l)
  refine pay3_blk (V c main_arg0) (iblk0 V c 0 t) (iblk0 V c 0 ⟨t.val - 1, Nat.lt_of_le_of_lt (Nat.sub_le _ _) t.isLt⟩)
    ⟨t.val / 2, by omega⟩ (fun k n => ?_) (fun k n => ?_) u v l
  · show V c main_arg0 (((cfg0.win 0).blk ⟨t.val - 1, Nat.lt_of_le_of_lt (Nat.sub_le _ _) t.isLt⟩).view.emb (ix3 (0 : Fin 1) k n)) = _
    rw [emb_blk0_0 ⟨t.val - 1, Nat.lt_of_le_of_lt (Nat.sub_le _ _) t.isLt⟩ k n]
    refine congrArg (V c main_arg0) ?_
    have e1 : (t.val - 1) / 2 = t.val / 2 := by omega
    have e2 : (t.val - 1) % 2 * 1024 + k.val = k.val := by omega
    funext a; apply Fin.ext
    match a with
    | ⟨0, _⟩ => exact e1
    | ⟨1, _⟩ => exact e2
    | ⟨2, _⟩ => rfl
  · show V c main_arg0 (((cfg0.win 0).blk t).view.emb (ix3 (0 : Fin 1) k n)) = _
    rw [emb_blk0_0 t k n]
    refine congrArg (V c main_arg0) ?_
    have e2 : t.val % 2 * 1024 + k.val = 1024 + k.val := by omega
    funext a; apply Fin.ext
    match a with
    | ⟨0, _⟩ => rfl
    | ⟨1, _⟩ => exact e2
    | ⟨2, _⟩ => rfl

/-- The first result array after the region. -/
theorem final0_1 (c : Dev nD) : (dat0 V c).arrAt 1 cfg0.N = G1 (V c main_arg0) :=
  (dat0 V c).arrAt_eq_of_cover 1 (G1 (V c main_arg0)) (fun t hf => flushed0_1_eq V c t hf) cover0_1arr
/-- The second result array after the region. -/
theorem final0_2 (c : Dev nD) : (dat0 V c).arrAt 2 cfg0.N = G2 (V c main_arg0) :=
  (dat0 V c).arrAt_eq_of_cover 2 (G2 (V c main_arg0)) (fun t _ => flushed0_2_eq V c t) cover0_2arr
end

end Cert.KernelIdeal.Hand

end
-- ==== Proof.Value.HostRead.lean ====
/- What the two host reshapes between the regions leave in the second region's first two operands: each is the
   first region's output array viewed at the shape [32, 2048] (same elements in row-major order). -/
import proofs.«161578_j60215441489999_2_alg».proof.Proof.KernelIdeal.Run
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.StableHlo

variable {F : FTy → Type} [FloatOps F]
variable (m : (ℓ : Loc nD τ sig) → Buf (Elt F) ℓ) (ρ : Dev nD → PrngReg)

/-- After the two reshapes `main_v1` holds the first reshape's result: `main_v0_0` as the first region left it, cast to
    [32, 2048]; the second reshape writes another buffer. -/
theorem V2_main_v1 (c : Dev nD) :
    (V2 m ρ c main_v1 : S32x2048.Idx → Elt F .f32)
      = shapeCast S32x2048 (W1 m ρ c (Proc.devRef .tc main_v0_0)) shapeCasts_S32x1x2048_S32x2048 := by
  show StableHlo.after hostOps1 (W1 m ρ c) (Proc.devRef .tc main_v1) = _
  dsimp only [hostOps1]
  after_results
  rfl

/-- After the two reshapes `main_v2` holds the second reshape's result: `main_v0_1` as the first region left it, cast to
    [32, 2048]; the first reshape neither writes `main_v0_1` nor `main_v2`. -/
theorem V2_main_v2 (c : Dev nD) :
    (V2 m ρ c main_v2 : S32x2048.Idx → Elt F .f32)
      = shapeCast S32x2048 (W1 m ρ c (Proc.devRef .tc main_v0_1)) shapeCasts_S32x1x2048_S32x2048 := by
  show StableHlo.after hostOps1 (W1 m ρ c) (Proc.devRef .tc main_v2) = _
  dsimp only [hostOps1]
  after_results
  rfl

end Cert.KernelIdeal.Hand

end
-- ==== Proof.Value.Tail.lean ====
/-
  The second kernel against the reference's tail, at the ideal values (a float an extended real, every
  operation exact, a change of format the identity). With q = concat(a, b, 2·x₁) both sides compute
  quantified = 1 − exp(−q) and outputs = softmax₀(w)ᵀ · quantified, where softmax₀ normalises each
  column of w over its 72 rows. The two programs spell the same functions differently: the kernel negates
  by 0 − q, takes the column maximum from −∞ once where the reference takes it and then again against a
  splat of −∞, lays a row over the 72 rows by a cast and one broadcast where the reference broadcasts twice,
  sums from a dropped neutral accumulator where the reference adds an initial 0, rounds both matmul operands
  to bf16 (the identity here) and accumulates the product into a zero splat.
-/
import proofs.«161578_j60215441489999_2_alg».proof.Proof.Gen.KernelIdeal.Skeleton
import proofs.«161578_j60215441489999_2_alg».proof.Proof.Gen.ReferenceIdeal.Read
import Idealize.ShloMosaic.Lib.KernelVsHost
import Idealize.ShloMosaic.Lib.IdealHost
import Idealize.ShloMosaic.Lib.ValueLayout

noncomputable section

namespace Cert.Tail

open Idealize.ShloMosaic Idealize.SL.Sem Idealize.ShloMosaic.ValueIdx

/-! ## The reference's tail as a function of the two sums -/

section Ref
open Cert.ReferenceIdeal Cert.ReferenceIdeal.Gen

/-- q = concat(a, b, 2·x₁) along the rows. -/
def refCat (a b : (⟨S32x2048, .f32⟩ : BufTy).Contents (Elt Ideal)) (x1 : (⟨S8x2048, .f32⟩ : BufTy).Contents (Elt Ideal)) :
    (⟨S72x2048, .f32⟩ : BufTy).Contents (Elt Ideal) :=
  concatenate S72x2048 0 [⟨S32x2048, a⟩, ⟨S32x2048, b⟩, ⟨S8x2048, (mulf (F := Ideal) (x1) (broadcastInDim S8x2048 ![] bcast_S_S8x2048 (constant S_ .f32 0x40000000#32)))⟩] concatenates_S32x2048_S32x2048_S8x2048_S72x2048_d0

/-- quantified = 1 − exp(−q). -/
def refQuant (a b : (⟨S32x2048, .f32⟩ : BufTy).Contents (Elt Ideal)) (x1 : (⟨S8x2048, .f32⟩ : BufTy).Contents (Elt Ideal)) :
    (⟨S72x2048, .f32⟩ : BufTy).Contents (Elt Ideal) :=
  subf (F := Ideal) (broadcastInDim S72x2048 ![] bcast_S_S72x2048 (constant S_ .f32 0x3F800000#32)) (Host.exp (Host.negf (refCat a b x1)))

/-- outputs = softmax₀(x₂)ᵀ · quantified: the contraction over the 72 rows. -/
def refOut (a b : (⟨S32x2048, .f32⟩ : BufTy).Contents (Elt Ideal)) (x1 : (⟨S8x2048, .f32⟩ : BufTy).Contents (Elt Ideal))
    (x2 : (⟨S72x256, .f32⟩ : BufTy).Contents (Elt Ideal)) : (⟨S256x2048, .f32⟩ : BufTy).Contents (Elt Ideal) :=
  Host.dotGeneral (F := Ideal) (φ₁ := .f32) (φ₂ := .f32) dot_S72x256_S72x2048_S256x2048_0_0_1_1_n_n none (Read.val_main_v19 (F := Ideal) x2) (refQuant a b x1)

theorem refQuant_eq (x0 : (⟨S32x2048x2048, .f32⟩ : BufTy).Contents (Elt Ideal)) (x1 : (⟨S8x2048, .f32⟩ : BufTy).Contents (Elt Ideal)) :
    refQuant (Read.val_main_v0 (F := Ideal) x0) (Read.val_main_v1 (F := Ideal) x0) x1 = Read.val_main_v8 (F := Ideal) x0 x1 := rfl

theorem refOut_eq (x0 : (⟨S32x2048x2048, .f32⟩ : BufTy).Contents (Elt Ideal)) (x1 : (⟨S8x2048, .f32⟩ : BufTy).Contents (Elt Ideal))
    (x2 : (⟨S72x256, .f32⟩ : BufTy).Contents (Elt Ideal)) :
    refOut (Read.val_main_v0 (F := Ideal) x0) (Read.val_main_v1 (F := Ideal) x0) x1 x2 = Read.val_main_v20 (F := Ideal) x0 x1 x2 := rfl

end Ref

/-! ## The kernel's softmax, stage by stage -/

section Ker
open Cert.KernelIdeal Cert.KernelIdeal.Gen

/-- The column maxima: the fold of max from −∞ over the 72 rows. -/
def kerMax (w : Vec Ideal S72x256 .f32) : FVec Ideal S256 .f32 :=
  multiReduction .maximumf [0] S256 w 0xFF800000#32 reduces_S72x256_S256 (.inl rfl) rfl

/-- exp(w − max), the maxima laid over the rows. -/
def kerExp (w : Vec Ideal S72x256 .f32) : FVec Ideal S72x256 .f32 :=
  exp (subf w (broadcastTo S72x256 (shapeCast S1x256 (kerMax w) shapeCasts_S256_S1x256) broadcasts_S1x256_S72x256))

/-- The column sums of the exponentials. -/
def kerSum (w : Vec Ideal S72x256 .f32) : FVec Ideal S256 .f32 :=
  multiReduction .add [0] S256 (kerExp w) 0x00000000#32 reduces_S72x256_S256 (.inl rfl) rfl

/-- The exponentials over their column sums. -/
def kerSoftmax (w : Vec Ideal S72x256 .f32) : FVec Ideal S72x256 .f32 :=
  divf (kerExp w) (broadcastTo S72x256 (shapeCast S1x256 (kerSum w) shapeCasts_S256_S1x256) broadcasts_S1x256_S72x256)

/-- The kernel's product is the matmul of its softmax and its quantified block, both rounded to bf16, into a zero splat. -/
theorem k1_pay2_eq (a b : Vec Ideal S32x2048 .f32) (x1 : Vec Ideal S8x2048 .f32) (w : Vec Ideal S72x256 .f32) :
    k1_pay2 (F := Ideal) a b x1 w
      = matmul dot_S72x256_S72x2048_S256x2048_0_0_1_1_n_n none (truncf .bf16 (kerSoftmax w) bitsLt_bf16_f32)
          (truncf .bf16 (k1_pay1 (F := Ideal) a b x1) bitsLt_bf16_f32) (constant S256x2048 .f32 0x00000000#32) := rfl

/-- The kernel's quantified block, its chain of operations written out. -/
theorem k1_pay1_eq (a b : Vec Ideal S32x2048 .f32) (x1 : Vec Ideal S8x2048 .f32) :
    k1_pay1 (F := Ideal) a b x1
      = subf (broadcast S72x2048 (Scalar.ofBits .f32 0x3F800000#32)) (exp (subf (broadcast S72x2048 (Scalar.ofBits .f32 0x00000000#32))
          (concatenate S72x2048 0 [⟨S32x2048, shapeCast S32x2048 a shapeCasts_S32x2048_S32x2048⟩, ⟨S32x2048, shapeCast S32x2048 b shapeCasts_S32x2048_S32x2048⟩,
              ⟨S8x2048, mulf x1 (broadcast S8x2048 (Scalar.ofBits .f32 0x40000000#32))⟩]
            concatenates_S32x2048_S32x2048_S8x2048_S72x2048_d0))) := rfl

end Ker

/-! ## Pointwise pieces -/

/-- The f32 pattern of −∞ is the least extended real. -/
theorem ofBits_neg_inf_f32 : Ideal.ofBits .f32 0xFF800000#32 = ⊥ := by simp [Ideal.ofBits, Ideal.ieee]

/-- At the ideal values the kernel's exponential and the host's are one function. -/
theorem exp_eq_hostExp {s : Shape} (v : FVec Ideal s .f32) : exp v = Host.exp v := rfl

/-- Likewise the two quotients. -/
theorem divf_eq_hostDivf {s : Shape} (u v : FVec Ideal s .f32) : divf u v = Host.divf u v := rfl

/-- Rounding to bf16 changes nothing at the ideal values. -/
theorem truncf_bf16_eq {s : Shape} (v : FVec Ideal s .f32) (h : FTy.bits .bf16 < FTy.bits .f32) :
    (truncf .bf16 v h : FVec Ideal s .bf16) = v := rfl

/-! ## quantified -/

/-- A concatenation of three pieces is a function of the pieces. -/
theorem cat_congr {α : Type} {t s1 s2 s3 : Shape} (ax : Fin t.rank) (u1 v1 : s1.Idx → α) (u2 v2 : s2.Idx → α) (u3 v3 : s3.Idx → α)
    (h : Shape.Concatenates [s1, s2, s3] t ax) (e1 : u1 = v1) (e2 : u2 = v2) (e3 : u3 = v3) :
    concatenate t ax [⟨s1, u1⟩, ⟨s2, u2⟩, ⟨s3, u3⟩] h = concatenate t ax [⟨s1, v1⟩, ⟨s2, v2⟩, ⟨s3, v3⟩] h := by
  subst e1 e2 e3; rfl

/-- The two concatenations: the kernel's casts to the same shape are the identity, and the splat of 2 is the broadcast constant 2. -/
theorem cat_eq (a b : (⟨Cert.ReferenceIdeal.S32x2048, .f32⟩ : BufTy).Contents (Elt Ideal))
    (x1 : (⟨Cert.ReferenceIdeal.S8x2048, .f32⟩ : BufTy).Contents (Elt Ideal)) :
    concatenate Cert.KernelIdeal.S72x2048 0 [⟨Cert.KernelIdeal.S32x2048, shapeCast Cert.KernelIdeal.S32x2048 a Cert.KernelIdeal.Gen.shapeCasts_S32x2048_S32x2048⟩,
        ⟨Cert.KernelIdeal.S32x2048, shapeCast Cert.KernelIdeal.S32x2048 b Cert.KernelIdeal.Gen.shapeCasts_S32x2048_S32x2048⟩,
        ⟨Cert.KernelIdeal.S8x2048, mulf (F := Ideal) x1 (broadcast Cert.KernelIdeal.S8x2048 (Scalar.ofBits .f32 0x40000000#32))⟩]
      Cert.KernelIdeal.Gen.concatenates_S32x2048_S32x2048_S8x2048_S72x2048_d0 = refCat a b x1 :=
  cat_congr _ _ _ _ _ _ _ _ (shapeCast_self a _) (shapeCast_self b _)
    (congrArg (mulf (F := Ideal) x1) (broadcastInDim_constant _ Cert.ReferenceIdeal.Gen.bcast_S_S8x2048 _).symm)

theorem quant_eq (a b : (⟨Cert.ReferenceIdeal.S32x2048, .f32⟩ : BufTy).Contents (Elt Ideal))
    (x1 : (⟨Cert.ReferenceIdeal.S8x2048, .f32⟩ : BufTy).Contents (Elt Ideal)) :
    Cert.KernelIdeal.Gen.k1_pay1 (F := Ideal) a b x1 = refQuant a b x1 := by
  rw [k1_pay1_eq, cat_eq, subf_zero_eq_hostNegf, exp_eq_hostExp]
  unfold refQuant
  rw [broadcastInDim_constant]

/-! ## The softmax -/

/-- One row laid over 72: the kernel's cast to one row and broadcast down the rows is the reference's two broadcasts. -/
theorem bcastRows_eq {α : Type} (m : Cert.KernelIdeal.S256.Idx → α) :
    broadcastTo Cert.KernelIdeal.S72x256 (shapeCast Cert.KernelIdeal.S1x256 m Cert.KernelIdeal.Gen.shapeCasts_S256_S1x256)
        Cert.KernelIdeal.Gen.broadcasts_S1x256_S72x256
      = broadcastInDim Cert.ReferenceIdeal.S72x256 ![0, 1] Cert.ReferenceIdeal.Gen.bcast_S1x256_S72x256_0_1
          (broadcastInDim Cert.ReferenceIdeal.S1x256 ![1] Cert.ReferenceIdeal.Gen.bcast_S256_S1x256_1 m) := by
  funext i
  have e1 := broadcastTo_apply (shapeCast Cert.KernelIdeal.S1x256 m Cert.KernelIdeal.Gen.shapeCasts_S256_S1x256)
    Cert.KernelIdeal.Gen.broadcasts_S1x256_S72x256 i (ix2 (0 : Fin 1) (i 1 : Fin 256)) (by
      intro a
      match a with
      | ⟨0, _⟩ => rfl
      | ⟨1, _⟩ => show (i 1).val = if (256 : Nat) = 1 then 0 else (i 1).val; rw [if_neg (by decide)])
  have e2 := shapeCast_a_1a_apply m Cert.KernelIdeal.Gen.shapeCasts_S256_S1x256 (0 : Fin 1) (i 1 : Fin 256)
  have e3 := broadcastInDim_apply ![0, 1] Cert.ReferenceIdeal.Gen.bcast_S1x256_S72x256_0_1
    (broadcastInDim Cert.ReferenceIdeal.S1x256 ![1] Cert.ReferenceIdeal.Gen.bcast_S256_S1x256_1 m) i (ix2 (0 : Fin 1) (i 1 : Fin 256)) (by
      intro a
      match a with
      | ⟨0, _⟩ => show 0 = if (1 : Nat) = 1 then 0 else (i 0).val; rw [if_pos rfl]
      | ⟨1, _⟩ => show (i 1).val = if (256 : Nat) = 1 then 0 else (i 1).val; rw [if_neg (by decide)])
  have e4 := broadcastInDim_apply ![1] Cert.ReferenceIdeal.Gen.bcast_S256_S1x256_1 m (ix2 (0 : Fin 1) (i 1 : Fin 256)) (ix1 (i 1 : Fin 256)) (by
      intro a
      match a with
      | ⟨0, _⟩ => show (i 1).val = if (256 : Nat) = 1 then 0 else (i 1).val; rw [if_neg (by decide)])
  exact e1.trans (e2.trans (e3.trans e4).symm)

/-- The column maxima: both sides fold max from −∞ over the 72 rows, and the reference's second maximum against −∞ changes nothing. -/
theorem kerMax_eq (w : (⟨Cert.ReferenceIdeal.S72x256, .f32⟩ : BufTy).Contents (Elt Ideal)) :
    kerMax w = Cert.ReferenceIdeal.Read.val_main_v11 (F := Ideal) w := by
  funext j
  have hK : kerMax w j = (Finset.univ : Finset (Fin 72)).fold (FloatOps.maximumf (F := Ideal) (φ := .f32))
      (FloatOps.ofBits (F := Ideal) .f32 0xFF800000#32) (w ∘ Cert.KernelIdeal.Gen.reduces_S72x256_S256.lift j) :=
    Ideal.multiReduction_maximumf_single w _ Cert.KernelIdeal.Gen.reduces_S72x256_S256 _ _ j
  have hR : Cert.ReferenceIdeal.Read.val_main_v9 (F := Ideal) w j
      = (Finset.univ : Finset (Fin 72)).fold (FloatOps.maximumf (F := Ideal) (φ := .f32))
          (Cert.ReferenceIdeal.Read.val_main_cst_3 (F := Ideal) (Shape.Idx.first Cert.ReferenceIdeal.Gen.h_S_))
          (w ∘ Cert.KernelIdeal.Gen.reduces_S72x256_S256.lift j) :=
    Host.reduce_eq_fold_single (FloatOps.maximumf (F := Ideal) (φ := .f32)) w (Cert.ReferenceIdeal.Read.val_main_cst_3 (F := Ideal))
      Cert.ReferenceIdeal.Gen.reducesTo_S72x256_S256_d0 Cert.KernelIdeal.Gen.reduces_S72x256_S256 Cert.ReferenceIdeal.Gen.h_S_ j
  have hc : (FloatOps.ofBits (F := Ideal) .f32 0xFF800000#32 : Ideal .f32) = ⊥ := ofBits_neg_inf_f32
  rw [Cert.ReferenceIdeal.Read.val_main_v11_apply, Cert.ReferenceIdeal.Read.val_main_v10_apply,
    Cert.ReferenceIdeal.Read.val_main_cst_4_apply, hR, hK, Cert.ReferenceIdeal.Read.val_main_cst_3_apply, hc]
  exact (max_eq_right bot_le).symm

theorem kerExp_eq (w : (⟨Cert.ReferenceIdeal.S72x256, .f32⟩ : BufTy).Contents (Elt Ideal)) :
    kerExp w = Cert.ReferenceIdeal.Read.val_main_v15 (F := Ideal) w := by
  unfold kerExp
  rw [kerMax_eq, bcastRows_eq, exp_eq_hostExp]
  rfl

theorem kerSum_eq (w : (⟨Cert.ReferenceIdeal.S72x256, .f32⟩ : BufTy).Contents (Elt Ideal)) :
    kerSum w = Cert.ReferenceIdeal.Read.val_main_v16 (F := Ideal) w := by
  unfold kerSum Cert.ReferenceIdeal.Read.val_main_v16
  rw [kerExp_eq]
  exact multiReduction_add_eq_hostReduceAdd _ _ Cert.KernelIdeal.Gen.reduces_S72x256_S256 _ _ _
    Cert.ReferenceIdeal.Gen.reducesTo_S72x256_S256_d0 Cert.ReferenceIdeal.Gen.h_S_ Ideal.ofBits_zero_f32

theorem kerSoftmax_eq (w : (⟨Cert.ReferenceIdeal.S72x256, .f32⟩ : BufTy).Contents (Elt Ideal)) :
    kerSoftmax w = Cert.ReferenceIdeal.Read.val_main_v19 (F := Ideal) w := by
  unfold kerSoftmax
  rw [kerSum_eq, kerExp_eq, bcastRows_eq, divf_eq_hostDivf]
  rfl

/-! ## outputs -/

theorem out_eq (a b : (⟨Cert.ReferenceIdeal.S32x2048, .f32⟩ : BufTy).Contents (Elt Ideal))
    (x1 : (⟨Cert.ReferenceIdeal.S8x2048, .f32⟩ : BufTy).Contents (Elt Ideal))
    (x2 : (⟨Cert.ReferenceIdeal.S72x256, .f32⟩ : BufTy).Contents (Elt Ideal)) :
    Cert.KernelIdeal.Gen.k1_pay2 (F := Ideal) a b x1 x2 = refOut a b x1 x2 := by
  rw [k1_pay2_eq, truncf_bf16_eq, truncf_bf16_eq, matmul_zero_eq_dotGeneral, kerSoftmax_eq, quant_eq]
  rfl

end Cert.Tail

end
-- ==== Proof.Value.Results.lean ====
/-
  The two results of the whole program at the ideal instance, as the reference's stages of the launch contents: the
  first region's arrays are the reference's two sums (one element each), the reshapes only re-index them, and the second
  region applies to them, to the attributes and to the weights what the reference's remaining operations apply.
-/
import proofs.«161578_j60215441489999_2_alg».proof.Proof.KernelIdeal.Run
import proofs.«161578_j60215441489999_2_alg».proof.Proof.Value.R0Final
import proofs.«161578_j60215441489999_2_alg».proof.Proof.Value.HostRead
import proofs.«161578_j60215441489999_2_alg».proof.Proof.Value.Tail
import proofs.«161578_j60215441489999_2_alg».proof.Proof.Value.Sums

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem W1_main_v0_0 (c : Dev nD) : W1 m ρ c (Proc.devRef .tc main_v0_0) = G1 (m ((c : Thread nD τ).loc main_arg0)) :=
  (W1_arr m ρ c 1).trans (final0_1 (V0 m ρ) c)
theorem W1_main_v0_1 (c : Dev nD) : W1 m ρ c (Proc.devRef .tc main_v0_1) = G2 (m ((c : Thread nD τ).loc main_arg0)) :=
  (W1_arr m ρ c 2).trans (final0_2 (V0 m ρ) c)

/-- The second region's first operand is the reference's sum over the middle axis; -/
theorem V2_sum1 (c : Dev nD) : V2 m ρ c main_v1 = Cert.ReferenceIdeal.Read.val_main_v0 (F := Ideal) (m ((c : Thread nD τ).loc main_arg0)) := by
  rw [V2_main_v1 m ρ c, W1_main_v0_0 m ρ c]
  exact Cert.Sums.reshape_sum1 _ _ _ (fun r n => G1_ix _ r 0 n)
/-- its second the sum over the last axis. -/
theorem V2_sum2 (c : Dev nD) : V2 m ρ c main_v2 = Cert.ReferenceIdeal.Read.val_main_v1 (F := Ideal) (m ((c : Thread nD τ).loc main_arg0)) := by
  rw [V2_main_v2 m ρ c, W1_main_v0_1 m ρ c]
  exact Cert.Sums.reshape_sum2 _ _ _ (fun r n => G2_ix _ r 0 n)

/-- The program's second result (the "quantified" array) is the reference's. -/
theorem result_quant (c : Dev nD) :
    W3 m ρ c (Proc.devRef .tc main_v3_0) = Cert.ReferenceIdeal.Read.val_main_v8 (F := Ideal) (m ((c : Thread nD τ).loc main_arg0)) (m ((c : Thread nD τ).loc main_arg1)) := by
  refine (W3_arr m ρ c 4).trans ((final1_4 (V2 m ρ) c).trans ?_)
  rw [V2_sum1 m ρ c, V2_sum2 m ρ c, show V2 m ρ c main_arg1 = m ((c : Thread nD τ).loc main_arg1) from W2_main_arg1 m ρ c]
  exact (Cert.Tail.quant_eq _ _ _).trans (Cert.Tail.refQuant_eq _ _)

/-- The program's first result (the "outputs" array) is the reference's. -/
theorem result_out (c : Dev nD) :
    W3 m ρ c (Proc.devRef .tc main_v3_1) = Cert.ReferenceIdeal.Read.val_main_v20 (F := Ideal) (m ((c : Thread nD τ).loc main_arg0)) (m ((c : Thread nD τ).loc main_arg1)) (m ((c : Thread nD τ).loc main_arg2)) := by
  refine (W3_arr m ρ c 5).trans ((final1_5 (V2 m ρ) c).trans ?_)
  rw [V2_sum1 m ρ c, V2_sum2 m ρ c, show V2 m ρ c main_arg1 = m ((c : Thread nD τ).loc main_arg1) from W2_main_arg1 m ρ c,
    show V2 m ρ c main_arg2 = m ((c : Thread nD τ).loc main_arg2) from W2_main_arg2 m ρ c]
  exact (Cert.Tail.out_eq _ _ _ _).trans (Cert.Tail.refOut_eq _ _ _)

end Cert.KernelIdeal.Hand

end
-- ==== Proof.lean ====
/-
  The certificate of the two-kernel program against its reference.

  The program sums a database `db : [32, 2048, 2048]` over its middle axis and over its last axis (first kernel: a grid of
  32 relations × 2 chunks of 1024 rows; the row sums of a chunk are complete and written directly, the column sums are
  accumulated over the two chunks in a scratch buffer reset at the first chunk and copied out at the second), reshapes the
  two results, and in a second kernel forms `q = concat(sum₁, sum₂, 2·attributes)`, `1 − exp(−q)`, the softmax of the
  weights over their rows, and the product of the two contracted over the 72 rows. The reference does the same with
  whole-array operations.

  Frames: the two kernel programs' runs are built region by region (Proof/Kernel/Run.lean at the word level,
  Proof/KernelIdeal/Run.lean at the ideal instance: the same text, generic in the float instance); the reference's is its
  generated run. The idealization rewrote nothing, so `preserves` is trivial. At the ideal instance the kernel's two
  results are the reference's stages (Proof/Value/Results.lean): the accumulated sum over two chunks is the sum over the
  whole axis by associativity and commutativity of addition on the extended reals (no finiteness is used), and the
  second kernel's operations are, index by index, the reference's.
-/
import proofs.«161578_j60215441489999_2_alg».proof.Defs
import proofs.«161578_j60215441489999_2_alg».proof.Proof.Gen.Kernel
import proofs.«161578_j60215441489999_2_alg».proof.Proof.Gen.KernelIdeal
import proofs.«161578_j60215441489999_2_alg».proof.Proof.Gen.ReferenceIdeal
import proofs.«161578_j60215441489999_2_alg».proof.Proof.Gen.ReferenceIdeal.Run
import proofs.«161578_j60215441489999_2_alg».proof.Proof.Gen.ReferenceIdeal.Read
import proofs.«161578_j60215441489999_2_alg».proof.Proof.Gen.Pre_finite_inputs
import proofs.«161578_j60215441489999_2_alg».proof.Proof.Kernel.Run
import proofs.«161578_j60215441489999_2_alg».proof.Proof.KernelIdeal.Run
import proofs.«161578_j60215441489999_2_alg».proof.Proof.Value.Results

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2.2) (Cert.ReferenceIdeal.Value.run (F := Ideal) m ρ)

/-- At the ideal instance both programs end with the reference's two stages of the (agreeing) arguments. -/
theorem algebraic : Cert.algebraic_KernelIdeal_ReferenceIdeal := by
  intro m ρ m' ρ' _ hagree
  refine ⟨fun c => Cert.ReferenceIdeal.Read.val_main_v20 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)),
    fun c => Cert.ReferenceIdeal.Read.val_main_v8 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)), ?_, ?_⟩
  · exact (θ_run Cert.KernelIdeal.defs _ _).mono (fun r h c =>
      ⟨(h c _ (Cert.KernelIdeal.Hand.mem_uc Cert.KernelIdeal.main_v3_1 (by decide))).trans (Cert.KernelIdeal.Hand.result_out m ρ c),
       (h c _ (Cert.KernelIdeal.Hand.mem_uc Cert.KernelIdeal.main_v3_0 (by decide))).trans (Cert.KernelIdeal.Hand.result_quant m ρ c),
       (h c _ (Cert.KernelIdeal.Hand.mem_uc Cert.KernelIdeal.main_arg0 (by decide))).trans (Cert.KernelIdeal.Hand.W3_main_arg0 m ρ c),
       (h c _ (Cert.KernelIdeal.Hand.mem_uc Cert.KernelIdeal.main_arg1 (by decide))).trans (Cert.KernelIdeal.Hand.W3_main_arg1 m ρ c),
       (h c _ (Cert.KernelIdeal.Hand.mem_uc Cert.KernelIdeal.main_arg2 (by decide))).trans (Cert.KernelIdeal.Hand.W3_main_arg2 m ρ c)⟩)
      (Cert.KernelIdeal.Hand.run (F := Ideal) m ρ)
  · refine (θ_run Cert.ReferenceIdeal.defs _ _).mono (fun _ h c => ⟨?_, ?_, (h c).2.2.1, (h c).2.2.2.1, (h c).2.2.2.2⟩)
      (Cert.ReferenceIdeal.Value.run (F := Ideal) m' ρ')
    · rw [(h c).1, Cert.ReferenceIdeal.Read.val_main_v20_eq, (hagree c).1, (hagree c).2.1, (hagree c).2.2]
    · rw [(h c).2.1, Cert.ReferenceIdeal.Read.val_main_v8_eq, (hagree c).1, (hagree c).2.1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
